-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_cst_9)) (v3 : (c : Dev Cert.KernelIdeal.nD) → Buf (Elt Ideal) ((c.tc : Thread Cert.KernelIdeal.nD Cert.KernelIdeal.τ).loc Cert.KernelIdeal.main_v29)) (v4 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_cst_9) = v2 c
          ∧ r.2.mem ((c.tc : Thread Cert.KernelIdeal.nD Cert.KernelIdeal.τ).loc Cert.KernelIdeal.main_v29) = v3 c
          ∧ r.2.mem ((c.tc : Thread Cert.KernelIdeal.nD Cert.KernelIdeal.τ).loc Cert.KernelIdeal.main_v5_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_cst_24) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v51) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32x512 : Shape := ⟨3, ![4096, 32, 512]⟩
abbrev S4096x32 : Shape := ⟨2, ![4096, 32]⟩
abbrev S4096 : Shape := ⟨1, ![4096]⟩
abbrev S4096x512 : Shape := ⟨2, ![4096, 512]⟩
abbrev S512 : Shape := ⟨1, ![512]⟩
abbrev S1024x512 : Shape := ⟨2, ![1024, 512]⟩
abbrev S512x1 : Shape := ⟨2, ![512, 1]⟩
abbrev S1 : Shape := ⟨1, ![1]⟩
abbrev S_ : Shape := ⟨0, ![]⟩

class Facts : Prop where
  bcast_S_S4096x32x512 : S_.BroadcastsInDim S4096x32x512 (![] : Fin 0 → Fin S4096x32x512.rank)
  reducesTo_S4096x32x512_S_d0_1_2 : S4096x32x512.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S512x1 .f32) (main_arg12 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x1 .f32 := Host.absf main_arg11
  let main_cst_20 : FVec F S_ .f32 := constant S_ .f32 0x7F800000#32
  let main_v55 : FVec F S512x1 .f32 := broadcastInDim S512x1 ![] bcast_S_S512x1 main_cst_20
  let main_v56 : IVec S512x1 1 := cmpf .olt main_v54 main_v55
  let main_c_21 : IVec S_ 1 := constantI S_ 1 1#1
  let main_v57 : IVec S_ 1 := (fun x v => Host.reduce IntOp.andi x v reducesTo_S512x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S1024x512 .f32) (main_arg8 : FVec F S512 .f32) (main_arg9 : FVec F S512 .f32) (main_arg10 : FVec F S512 .f32) (main_arg11 : FVec F S512x1 .f32) (main_arg12 : FVec F S1 .f32) (main_v33 : IVec S_ 1) : IVec S_ 1 :=
  let main_v34 : FVec F S1024x512 .f32 := Host.absf main_arg7
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_v48 main_v49 main_v50

def fn_part1 {F : FTy → Type} [FloatOps F] (main_arg4 : FVec F S4096x32 .f32) (main_arg5 : FVec F S512 .f32) (main_arg6 : FVec F S512 .f32) (main_arg7 : FVec F S1024x512 .f32) (main_arg8 : FVec F S512 .f32) (main_arg9 : FVec F S512 .f32) (main_arg10 : FVec F S512 .f32) (main_arg11 : FVec F S512x1 .f32) (main_arg12 : FVec F S1 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x32x512 .f32) (main_arg1 : FVec F S4096x32 .f32) (main_arg2 : FVec F S4096 .f32) (main_arg3 : FVec F S4096x512 .f32) (main_arg4 : FVec F S4096x32 .f32) (main_arg5 : FVec F S512 .f32) (main_arg6 : FVec F S512 .f32) (main_arg7 : FVec F S1024x512 .f32) (main_arg8 : FVec F S512 .f32) (main_arg9 : FVec F S512 .f32) (main_arg10 : FVec F S512 .f32) (main_arg11 : FVec F S512x1 .f32) (main_arg12 : FVec F S1 .f32) (main_arg13 : IVec S4096x32 32) : IVec S_ 1 :=
  let main_v0 : FVec F S4096x32x512 .f32 := Host.absf main_arg0
  let main_cst : FVec F S_ .f32 := constant S_ .f32 0x7F800000#32
  let main_v1 : FVec F S4096x32x512 .f32 := broadcastInDim S4096x32x512 ![] bcast_S_S4096x32x512 main_cst
  let main_v2 : IVec S4096x32x512 1 := cmpf .olt main_v0 main_v1
  let main_c : IVec S_ 1 := constantI S_ 1 1#1
  let main_v3 : IVec S_ 1 := (fun x v => Host.reduce IntOp.andi x v reducesTo_S4096x32x512_S_d0_1_2 h_S_) main_v2 main_c
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_arg7 main_arg8 main_arg9 main_arg10 main_arg11 main_arg12 main_v13 main_v16
-- ==== Kernel.lean ====
abbrev S4096x32x512 : Shape := ⟨3, ![4096, 32, 512]⟩
abbrev S4096x32 : Shape := ⟨2, ![4096, 32]⟩
abbrev S4096 : Shape := ⟨1, ![4096]⟩
abbrev S4096x512 : Shape := ⟨2, ![4096, 512]⟩
abbrev S512 : Shape := ⟨1, ![512]⟩
abbrev S1024x512 : Shape := ⟨2, ![1024, 512]⟩
abbrev S512x1 : Shape := ⟨2, ![512, 1]⟩
abbrev S1 : Shape := ⟨1, ![1]⟩
abbrev S4096x1 : Shape := ⟨2, ![4096, 1]⟩
abbrev S512x512 : Shape := ⟨2, ![512, 512]⟩
abbrev S32x32x512 : Shape := ⟨3, ![32, 32, 512]⟩
abbrev S32x32 : Shape := ⟨2, ![32, 32]⟩
abbrev S32x1 : Shape := ⟨2, ![32, 1]⟩
abbrev S32x512 : Shape := ⟨2, ![32, 512]⟩
abbrev S32x32x1 : Shape := ⟨3, ![32, 32, 1]⟩
abbrev S1x1x512 : Shape := ⟨3, ![1, 1, 512]⟩
abbrev S1x512 : Shape := ⟨2, ![1, 512]⟩
abbrev S32x1x512 : Shape := ⟨3, ![32, 1, 512]⟩
abbrev S1x1 : Shape := ⟨2, ![1, 1]⟩
abbrev S_ : Shape := ⟨0, ![]⟩
abbrev S131072 : Shape := ⟨1, ![131072]⟩
abbrev S131072x1 : Shape := ⟨2, ![131072, 1]⟩

abbrev nBuf : Space → Nat
  | .hbm => 58
  | .vmem => 25
  | .smem => 0
  | _ => 0

abbrev bufTy : (tb : Table) → Fin (tcTables nBuf tb) → BufTy
  | .hbm, ⟨0, _⟩ => ⟨S4096x32x512, .f32⟩
  | .hbm, ⟨1, _⟩ => ⟨S4096x32, .f32⟩
  | .hbm, ⟨2, _⟩ => ⟨S4096, .f32⟩
  | .hbm, ⟨3, _⟩ => ⟨S4096x512, .f32⟩
  | .hbm, ⟨4, _⟩ => ⟨S4096x32, .f32⟩
  | .hbm, ⟨5, _⟩ => ⟨S512, .f32⟩
  | .hbm, ⟨6, _⟩ => ⟨S512, .f32⟩
  | .hbm, ⟨7, _⟩ => ⟨S1024x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512x1, .f32⟩
  | .hbm, ⟨12, _⟩ => ⟨S1, .f32⟩
  | .hbm, ⟨13, _⟩ => ⟨S4096x32, .i32⟩
  | .hbm, ⟨14, _⟩ => ⟨S4096x1, .f32⟩
  | .hbm, ⟨15, _⟩ => ⟨S512, .f32⟩
  | .hbm, ⟨16, _⟩ => ⟨S512x512, .f32⟩
  | .hbm, ⟨17, _⟩ => ⟨S512x512, .f32⟩
  | .hbm, ⟨18, _⟩ => ⟨S512x512, .bf16⟩
  | .hbm, ⟨19, _⟩ => ⟨S4096x32, .f32⟩
  | .hbm, ⟨20, _⟩ => ⟨S4096x32, .f32⟩
  | .hbm, ⟨21, _⟩ => ⟨S4096x512, .f32⟩
  | .hbm, ⟨22, _⟩ => ⟨S_, .f32⟩
  | .hbm, ⟨23, _⟩ => ⟨S4096x32, .f32⟩
  | .hbm, ⟨24, _⟩ => ⟨S4096x32, .f32⟩
  | .hbm, ⟨25, _⟩ => ⟨S_, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S_, .f32⟩
  | .hbm, ⟨31, _⟩ => ⟨S4096x32, .f32⟩
  | .hbm, ⟨32, _⟩ => ⟨S4096x32, .f32⟩
  | .hbm, ⟨33, _⟩ => ⟨S_, .f32⟩
  | .hbm, ⟨34, _⟩ => ⟨S4096x32, .f32⟩
  | .hbm, ⟨35, _⟩ => ⟨S4096x32, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S131072, .f32⟩
  | .hbm, ⟨46, _⟩ => ⟨S131072, .i32⟩
  | .hbm, ⟨47, _⟩ => ⟨S131072, .f32⟩
  | .hbm, ⟨48, _⟩ => ⟨S_, .i32⟩
  | .hbm, ⟨49, _⟩ => ⟨S131072, .i32⟩
  | .hbm, ⟨50, _⟩ => ⟨S131072, .i1⟩
  | .hbm, ⟨51, _⟩ => ⟨S_, .i32⟩
  | .hbm, ⟨52, _⟩ => ⟨S131072, .i32⟩
  | .hbm, ⟨53, _⟩ => ⟨S131072, .i32⟩
  | .hbm, ⟨54, _⟩ => ⟨S131072, .i32⟩
  | .hbm, ⟨55, _⟩ => ⟨S131072x1, .i32⟩
  | .hbm, ⟨56, _⟩ => ⟨S131072, .f32⟩
  | .hbm, ⟨57, _⟩ => ⟨S_, .f32⟩
  | .local _ .vmem, ⟨0, _⟩ => ⟨S32x32x512, .f32⟩
  | .local _ .vmem, ⟨1, _⟩ => ⟨S32x32x512, .f32⟩
  | .local _ .vmem, ⟨2, _⟩ => ⟨S32x32, .f32⟩
  | .local _ .vmem, ⟨3, _⟩ => ⟨S32x32, .f32⟩
  | .local _ .vmem, ⟨4, _⟩ => ⟨S32x1, .f32⟩
  | .local _ .vmem, ⟨5, _⟩ => ⟨S32x1, .f32⟩
  | .local _ .vmem, ⟨6, _⟩ => ⟨S32x512, .f32⟩
  | .local _ .vmem, ⟨7, _⟩ => ⟨S32x512, .f32⟩
  | .local _ .vmem, ⟨8, _⟩ => ⟨S32x32, .f32⟩
  | .local _ .vmem, ⟨9, _⟩ => ⟨S32x32, .f32⟩
  | .local _ .vmem, ⟨10, _⟩ => ⟨S512, .f32⟩
  | .local _ .vmem, ⟨11, _⟩ => ⟨S512, .f32⟩
  | .local _ .vmem, ⟨12, _⟩ => ⟨S512x512, .f32⟩
  | .local _ .vmem, ⟨13, _⟩ => ⟨S512x512, .bf16⟩
  | .local _ .vmem, ⟨14, _⟩ => ⟨S512, .f32⟩
  | .local _ .vmem, ⟨15, _⟩ => ⟨S512, .f32⟩
  | .local _ .vmem, ⟨16, _⟩ => ⟨S512, .f32⟩
  | .local _ .vmem, ⟨17, _⟩ => ⟨S512, .f32⟩
  | .local _ .vmem, ⟨18, _⟩ => ⟨S1, .f32⟩
  | .local _ .vmem, ⟨19, _⟩ => ⟨S32x32, .f32⟩
  | .local _ .vmem, ⟨20, _⟩ => ⟨S32x32, .f32⟩
  | .local _ .vmem, ⟨21, _⟩ => ⟨S32x32, .f32⟩
  | .local _ .vmem, ⟨22, _⟩ => ⟨S32x32, .f32⟩
  | .local _ .vmem, ⟨23, _⟩ => ⟨S32x512, .f32⟩
  | .local _ .vmem, ⟨24, _⟩ => ⟨S32x512, .f32⟩
  | _, _ => ⟨S4096x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_cst_4 : Ref sig .tc := ⟨.hbm, 38, rfl⟩
abbrev main_v17 : Ref sig .tc := ⟨.hbm, 39, rfl⟩
abbrev main_cst_5 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_cst_7 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c : Ref sig .tc := ⟨.hbm, 48, rfl⟩
abbrev main_v23 : Ref sig .tc := ⟨.hbm, 49, rfl⟩
abbrev main_v24 : Ref sig .tc := ⟨.hbm, 50, rfl⟩
abbrev main_c_8 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_9 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S32x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S4096_S4096x1 : S4096.ShapeCasts S4096x1
  shapeCasts_S512x1_S512 : S512x1.ShapeCasts S512
  slices_S1024x512_S512x512_0_0 : S1024x512.Slices ![0, 0] S512x512
  slices_S1024x512_S512x512_512_0 : S1024x512.Slices ![512, 0] S512x512
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x32 : S32x1.Broadcasts S32x32
  inb_S512_S512_0 : ∀ a, (![0] : Fin 1 → Nat) a + S512.size a ≤ S512.size a
  h_S512 : 0 < S512.numel
  shapeCasts_S32x32_S32x32x1 : S32x32.ShapeCasts S32x32x1
  shapeCasts_S512_S1x1x512 : S512.ShapeCasts S1x1x512
  broadcasts_S32x32x1_S32x32x512 : S32x32x1.Broadcasts S32x32x512
  broadcasts_S1x1x512_S32x32x512 : S1x1x512.Broadcasts S32x32x512
  inb_S32x32x512_S32x32x512_0_0_0 : ∀ a, (![0, 0, 0] : Fin 3 → Nat) a + S32x32x512.size a ≤ S32x32x512.size a
  h_S32x32x512 : 0 < S32x32x512.numel
  shapeCasts_S32x32x512_S1024x512 : S32x32x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S32x512_S32x512_0_0 : ∀ a, (![0, 0] : Fin 2 → Nat) a + S32x512.size a ≤ S32x512.size a
  h_S32x512 : 0 < S32x512.numel
  shapeCasts_S512_S1x512 : S512.ShapeCasts S1x512
  broadcasts_S1x512_S32x512 : S1x512.Broadcasts S32x512
  shapeCasts_S1024x512_S32x32x512 : S1024x512.ShapeCasts S32x32x512
  shapeCasts_S32x512_S32x1x512 : S32x512.ShapeCasts S32x1x512
  broadcasts_S32x1x512_S32x32x512 : S32x1x512.Broadcasts S32x32x512
  reduces_S32x32x512_S32x32 : S32x32x512.Reduces [2] S32x32
  shapeCasts_S512_S512 : S512.ShapeCasts S512
  inb_S1_S1_0 : ∀ a, (![0] : Fin 1 → Nat) a + S1.size a ≤ S1.size a
  h_S1 : 0 < S1.numel
  shapeCasts_S1_S1x1 : S1.ShapeCasts S1x1
  broadcasts_S1x1_S32x32 : S1x1.Broadcasts S32x32
  reduces_S32x32x512_S32x512 : S32x32x512.Reduces [1] S32x512
  natLt_1_32 : 1 < 32
  bcast_S_S4096x32 : S_.BroadcastsInDim S4096x32 (![] : Fin 0 → Fin S4096x32.rank)
  reducesTo_S4096x32_S_d0_1 : S4096x32.ReducesTo [0, 1] S_
  h_S_ : 0 < S_.numel
  bcast_S_S131072 : S_.BroadcastsInDim S131072 (![] : Fin 0 → Fin S131072.rank)
  shapeCasts_S4096x32_S131072 : S4096x32.ShapeCasts S131072
  bcast_S131072_S131072x1_0 : S131072.BroadcastsInDim S131072x1 (![0] : Fin 1 → Fin S131072x1.rank)
  dot_S1024x512_S512x512_S1024x512_1_0_0_1_n_n_wf : DotDims.WF S1024x512 S512x512 S1024x512 [1] [0] [0] [1] [] []
  dot_S32x512_S512x512_S32x512_1_0_0_1_n_n_wf : DotDims.WF S32x512 S512x512 S32x512 [1] [0] [0] [1] [] []
  scatter_S131072_S131072x1_S131072_n_0_0_1_wf : ScatterDims.WF S131072 S131072x1 S131072 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x512.size a ≤ S4096x32x512.size a
  hwx0_0 : ∀ i : grid0.Coords, EltTy.bits .f32 = 32 ∨ (Rect.block (s := S4096x32x512) S32x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S4096x32.size a
  hwx0_1 : ∀ i : grid0.Coords, EltTy.bits .f32 = 32 ∨ (Rect.block (s := S4096x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S4096x1.size a
  hwx0_2 : ∀ i : grid0.Coords, EltTy.bits .f32 = 32 ∨ (Rect.block (s := S4096x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S4096x512.size a
  hwx0_3 : ∀ i : grid0.Coords, EltTy.bits .f32 = 32 ∨ (Rect.block (s := S4096x512) S32x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S4096x32.size a
  hwx0_4 : ∀ i : grid0.Coords, EltTy.bits .f32 = 32 ∨ (Rect.block (s := S4096x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1.size a ≤ S1.size a
  hwx0_13 : ∀ i : grid0.Coords, EltTy.bits .f32 = 32 ∨ (Rect.block (s := S1) S1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S32x32.size a ≤ S4096x32.size a
  hwx0_14 : ∀ i : grid0.Coords, EltTy.bits .f32 = 32 ∨ (Rect.block (s := S4096x32) S32x32.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S32x32.size a ≤ S4096x32.size a
  hwx0_15 : ∀ i : grid0.Coords, EltTy.bits .f32 = 32 ∨ (Rect.block (s := S4096x32) S32x32.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S32x512.size a ≤ S4096x512.size a
  hwx0_16 : ∀ i : grid0.Coords, EltTy.bits .f32 = 32 ∨ (Rect.block (s := S4096x512) S32x512.size (cc0_transform_16 i) (hinb0_16 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def scatter_S131072_S131072x1_S131072_n_0_0_1 : ScatterDims S131072 S131072x1 S131072 where
  updateWindowDims := []
  insertedWindowDims := [0]
  scatterDimsToOperandDims := [0]
  indexVectorDim := 1
  wf := scatter_S131072_S131072x1_S131072_n_0_0_1_wf

abbrev win0_0 : Pipeline.Window sig grid0 :=
  Pipeline.Window.ofSpec (Memref.whole main_arg0) S32x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v1) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v5_0) S32x32.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v5_1) S32x32.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v5_2) S32x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x32x512 : Shape := ⟨3, ![4096, 32, 512]⟩
abbrev S4096x32 : Shape := ⟨2, ![4096, 32]⟩
abbrev S4096 : Shape := ⟨1, ![4096]⟩
abbrev S4096x512 : Shape := ⟨2, ![4096, 512]⟩
abbrev S512 : Shape := ⟨1, ![512]⟩
abbrev S1024x512 : Shape := ⟨2, ![1024, 512]⟩
abbrev S512x1 : Shape := ⟨2, ![512, 1]⟩
abbrev S1 : Shape := ⟨1, ![1]⟩
abbrev S4096x1 : Shape := ⟨2, ![4096, 1]⟩
abbrev S4096x32x1 : Shape := ⟨3, ![4096, 32, 1]⟩
abbrev S1x1x512 : Shape := ⟨3, ![1, 1, 512]⟩
abbrev S4096x1x512 : Shape := ⟨3, ![4096, 1, 512]⟩
abbrev S4096x32x1024 : Shape := ⟨3, ![4096, 32, 1024]⟩
abbrev S_ : Shape := ⟨0, ![]⟩
abbrev S1x1x1 : Shape := ⟨3, ![1, 1, 1]⟩
abbrev S131072 : Shape := ⟨1, ![131072]⟩
abbrev S131072x1 : Shape := ⟨2, ![131072, 1]⟩

abbrev nBuf : Space → Nat
  | .hbm => 145
  | .vmem => 0
  | .smem => 0
  | _ => 0

abbrev hbmTy0_0 (i : Nat) : BufTy := match i % 128 with
  | 0 => ⟨S4096x32x512, .f32⟩
  | 1 => ⟨S4096x32, .f32⟩
  | 2 => ⟨S4096, .f32⟩
  | 3 => ⟨S4096x512, .f32⟩
  | 4 => ⟨S4096x32, .f32⟩
  | 5 => ⟨S512, .f32⟩
  | 6 => ⟨S512, .f32⟩
  | 7 => ⟨S1024x512, .f32⟩
  | 8 => ⟨S512, .f32⟩
  | 9 => ⟨S512, .f32⟩
  | 10 => ⟨S512, .f32⟩
  | 11 => ⟨S512x1, .f32⟩
  | 12 => ⟨S1, .f32⟩
  | 13 => ⟨S4096x32, .i32⟩
  | 14 => ⟨S4096x1, .f32⟩
  | 15 => ⟨S4096x32, .f32⟩
  | 16 => ⟨S4096x32, .f32⟩
  | 17 => ⟨S4096x32x1, .f32⟩
  | 18 => ⟨S1x1x512, .f32⟩
  | 19 => ⟨S4096x32x512, .f32⟩
  | 20 => ⟨S4096x32x512, .f32⟩
  | 21 => ⟨S4096x32x512, .f32⟩
  | 22 => ⟨S1x1x512, .f32⟩
  | 23 => ⟨S4096x32x512, .f32⟩
  | 24 => ⟨S4096x32x512, .f32⟩
  | 25 => ⟨S4096x32x512, .f32⟩
  | 26 => ⟨S4096x32x512, .f32⟩
  | 27 => ⟨S4096x1x512, .f32⟩
  | 28 => ⟨S4096x32x512, .f32⟩
  | 29 => ⟨S4096x32x1024, .f32⟩
  | 30 => ⟨S4096x32x512, .f32⟩
  | 31 => ⟨S1x1x512, .f32⟩
  | 32 => ⟨S4096x32x512, .f32⟩
  | 33 => ⟨S4096x32x512, .f32⟩
  | 34 => ⟨S_, .f32⟩
  | 35 => ⟨S4096x32, .f32⟩
  | 36 => ⟨S4096x32x1, .f32⟩
  | 37 => ⟨S_, .f32⟩
  | 38 => ⟨S4096x32x1, .f32⟩
  | 39 => ⟨S4096x32x1, .f32⟩
  | 40 => ⟨S4096x32x512, .f32⟩
  | 41 => ⟨S4096x32x512, .f32⟩
  | 42 => ⟨S4096x32x512, .f32⟩
  | 43 => ⟨S_, .f32⟩
  | 44 => ⟨S4096x32, .f32⟩
  | 45 => ⟨S4096x32x1, .f32⟩
  | 46 => ⟨S_, .f32⟩
  | 47 => ⟨S4096x32x1, .f32⟩
  | 48 => ⟨S4096x32x1, .f32⟩
  | 49 => ⟨S4096x32x512, .f32⟩
  | 50 => ⟨S4096x32x512, .f32⟩
  | 51 => ⟨S_, .f32⟩
  | 52 => ⟨S4096x32x1, .f32⟩
  | 53 => ⟨S4096x32x1, .f32⟩
  | 54 => ⟨S4096x32x1, .f32⟩
  | 55 => ⟨S4096x32x512, .f32⟩
  | 56 => ⟨S4096x32x512, .f32⟩
  | 57 => ⟨S1x1x512, .f32⟩
  | 58 => ⟨S4096x32x512, .f32⟩
  | 59 => ⟨S4096x32x512, .f32⟩
  | 60 => ⟨S1x1x512, .f32⟩
  | 61 => ⟨S4096x32x512, .f32⟩
  | 62 => ⟨S4096x32x512, .f32⟩
  | 63 => ⟨S4096x32x1, .f32⟩
  | 64 => ⟨S1x1x1, .f32⟩
  | 65 => ⟨S4096x32x1, .f32⟩
  | 66 => ⟨S4096x32x1, .f32⟩
  | 67 => ⟨S4096x32, .f32⟩
  | 68 => ⟨S_, .f32⟩
  | 69 => ⟨S4096x512, .f32⟩
  | 70 => ⟨S_, .f32⟩
  | 71 => ⟨S4096x512, .f32⟩
  | 72 => ⟨S4096x512, .f32⟩
  | 73 => ⟨S_, .f32⟩
  | 74 => ⟨S4096x32, .f32⟩
  | 75 => ⟨S4096x32, .f32⟩
  | 76 => ⟨S4096x32, .f32⟩
  | 77 => ⟨S4096x32, .f32⟩
  | 78 => ⟨S4096x32, .f32⟩
  | 79 => ⟨S4096x32, .f32⟩
  | 80 => ⟨S4096x32, .f32⟩
  | 81 => ⟨S_, .f32⟩
  | 82 => ⟨S4096x32, .f32⟩
  | 83 => ⟨S4096x32, .f32⟩
  | 84 => ⟨S4096x32, .f32⟩
  | 85 => ⟨S4096x32, .f32⟩
  | 86 => ⟨S_, .f32⟩
  | 87 => ⟨S4096x32, .f32⟩
  | 88 => ⟨S4096x32, .f32⟩
  | 89 => ⟨S_, .f32⟩
  | 90 => ⟨S4096x32, .f32⟩
  | 91 => ⟨S4096x32, .f32⟩
  | 92 => ⟨S_, .f32⟩
  | 93 => ⟨S4096x32, .f32⟩
  | 94 => ⟨S4096x32, .f32⟩
  | 95 => ⟨S4096x32, .f32⟩
  | 96 => ⟨S4096x32, .f32⟩
  | 97 => ⟨S_, .f32⟩
  | 98 => ⟨S4096x32, .f32⟩
  | 99 => ⟨S4096x32, .f32⟩
  | 100 => ⟨S_, .f32⟩
  | 101 => ⟨S4096x32, .f32⟩
  | 102 => ⟨S4096x32, .f32⟩
  | 103 => ⟨S_, .f32⟩
  | 104 => ⟨S_, .f32⟩
  | 105 => ⟨S_, .f32⟩
  | 106 => ⟨S_, .f32⟩
  | 107 => ⟨S_, .f32⟩
  | 108 => ⟨S4096x32, .f32⟩
  | 109 => ⟨S4096x32, .f32⟩
  | 110 => ⟨S_, .f32⟩
  | 111 => ⟨S4096x32, .f32⟩
  | 112 => ⟨S4096x32, .f32⟩
  | 113 => ⟨S_, .f32⟩
  | 114 => ⟨S_, .f32⟩
  | 115 => ⟨S_, .f32⟩
  | 116 => ⟨S4096x32, .f32⟩
  | 117 => ⟨S4096x32, .f32⟩
  | 118 => ⟨S_, .f32⟩
  | 119 => ⟨S4096x32, .f32⟩
  | 120 => ⟨S4096x32, .f32⟩
  | 121 => ⟨S_, .f32⟩
  | 122 => ⟨S4096x32, .f32⟩
  | 123 => ⟨S4096x32, .i1⟩
  | 124 => ⟨S4096x32, .f32⟩
  | 125 => ⟨S4096x32, .f32⟩
  | 126 => ⟨S4096x32, .f32⟩
  | 127 => ⟨S_, .f32⟩
  | _ => ⟨S4096x32x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S131072, .f32⟩
  | 5 => ⟨S131072, .i32⟩
  | 6 => ⟨S131072, .f32⟩
  | 7 => ⟨S_, .i32⟩
  | 8 => ⟨S131072, .i32⟩
  | 9 => ⟨S131072, .i1⟩
  | 10 => ⟨S_, .i32⟩
  | 11 => ⟨S131072, .i32⟩
  | 12 => ⟨S131072, .i32⟩
  | 13 => ⟨S131072, .i32⟩
  | 14 => ⟨S131072x1, .i32⟩
  | 15 => ⟨S131072, .f32⟩
  | 16 => ⟨S_, .f32⟩
  | _ => ⟨S4096x32x512, .f32⟩

abbrev hbmTy (i : Nat) : BufTy := match i / 128 with
  | 0 => hbmTy0_0 i
  | 1 => hbmTy0_1 i
  | _ => ⟨S4096x32x512, .f32⟩

abbrev bufTy : (tb : Table) → Fin (tcTables nBuf tb) → BufTy
  | .hbm, ⟨i, _⟩ => hbmTy i
  | _, _ => ⟨S4096x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_4 : Ref sig .tc := ⟨.hbm, 68, rfl⟩
abbrev main_v49 : Ref sig .tc := ⟨.hbm, 69, rfl⟩
abbrev main_cst_5 : Ref sig .tc := ⟨.hbm, 70, rfl⟩
abbrev main_v50 : Ref sig .tc := ⟨.hbm, 71, rfl⟩
abbrev main_v51 : Ref sig .tc := ⟨.hbm, 72, rfl⟩
abbrev main_cst_6 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_7 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_8 : Ref sig .tc := ⟨.hbm, 86, rfl⟩
abbrev main_v63 : Ref sig .tc := ⟨.hbm, 87, rfl⟩
abbrev main_v64 : Ref sig .tc := ⟨.hbm, 88, rfl⟩
abbrev main_cst_9 : Ref sig .tc := ⟨.hbm, 89, rfl⟩
abbrev main_v65 : Ref sig .tc := ⟨.hbm, 90, rfl⟩
abbrev main_v66 : Ref sig .tc := ⟨.hbm, 91, rfl⟩
abbrev main_cst_10 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_v72 : Ref sig .tc := ⟨.hbm, 99, rfl⟩
abbrev main_cst_12 : Ref sig .tc := ⟨.hbm, 100, rfl⟩
abbrev main_v73 : Ref sig .tc := ⟨.hbm, 101, rfl⟩
abbrev main_v74 : Ref sig .tc := ⟨.hbm, 102, rfl⟩
abbrev main_cst_13 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_cst_15 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_v80 : Ref sig .tc := ⟨.hbm, 112, rfl⟩
abbrev main_cst_17 : Ref sig .tc := ⟨.hbm, 113, rfl⟩
abbrev main_cst_18 : Ref sig .tc := ⟨.hbm, 114, rfl⟩
abbrev main_call0_v0 : Ref sig .tc := ⟨.hbm, 115, rfl⟩
abbrev main_call0_v1 : Ref sig .tc := ⟨.hbm, 116, rfl⟩
abbrev main_call0_v2 : Ref sig .tc := ⟨.hbm, 117, rfl⟩
abbrev main_call0_v3 : Ref sig .tc := ⟨.hbm, 118, rfl⟩
abbrev main_call0_v4 : Ref sig .tc := ⟨.hbm, 119, rfl⟩
abbrev main_v81 : Ref sig .tc := ⟨.hbm, 120, rfl⟩
abbrev main_cst_19 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_20 : Ref sig .tc := ⟨.hbm, 127, rfl⟩
abbrev main_v87 : Ref sig .tc := ⟨.hbm, 128, rfl⟩
abbrev main_cst_21 : Ref sig .tc := ⟨.hbm, 129, rfl⟩
abbrev main_v88 : Ref sig .tc := ⟨.hbm, 130, rfl⟩
abbrev main_cst_22 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c : Ref sig .tc := ⟨.hbm, 135, rfl⟩
abbrev main_v92 : Ref sig .tc := ⟨.hbm, 136, rfl⟩
abbrev main_v93 : Ref sig .tc := ⟨.hbm, 137, rfl⟩
abbrev main_c_23 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_24 : Ref sig .tc := ⟨.hbm, 144, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x32_0_1 : S4096x1.BroadcastsInDim S4096x32 (![0, 1] : Fin 2 → Fin S4096x32.rank)
  bcast_S4096x32_S4096x32x1_0_1 : S4096x32.BroadcastsInDim S4096x32x1 (![0, 1] : Fin 2 → Fin S4096x32x1.rank)
  bcast_S512_S1x1x512_2 : S512.BroadcastsInDim S1x1x512 (![2] : Fin 1 → Fin S1x1x512.rank)
  bcast_S4096x32x1_S4096x32x512_0_1_2 : S4096x32x1.BroadcastsInDim S4096x32x512 (![0, 1, 2] : Fin 3 → Fin S4096x32x512.rank)
  bcast_S1x1x512_S4096x32x512_0_1_2 : S1x1x512.BroadcastsInDim S4096x32x512 (![0, 1, 2] : Fin 3 → Fin S4096x32x512.rank)
  bcast_S4096x512_S4096x1x512_0_2 : S4096x512.BroadcastsInDim S4096x1x512 (![0, 2] : Fin 2 → Fin S4096x1x512.rank)
  bcast_S4096x1x512_S4096x32x512_0_1_2 : S4096x1x512.BroadcastsInDim S4096x32x512 (![0, 1, 2] : Fin 3 → Fin S4096x32x512.rank)
  concatenates_S4096x32x512_S4096x32x512_S4096x32x1024_d2 : Shape.Concatenates [S4096x32x512, S4096x32x512] S4096x32x1024 2
  reducesTo_S4096x32x512_S4096x32_d2 : S4096x32x512.ReducesTo [2] S4096x32
  h_S_ : 0 < S_.numel
  bcast_S_S4096x32x1 : S_.BroadcastsInDim S4096x32x1 (![] : Fin 0 → Fin S4096x32x1.rank)
  bcast_S1_S1x1x1_2 : S1.BroadcastsInDim S1x1x1 (![2] : Fin 1 → Fin S1x1x1.rank)
  bcast_S1x1x1_S4096x32x1_0_1_2 : S1x1x1.BroadcastsInDim S4096x32x1 (![0, 1, 2] : Fin 3 → Fin S4096x32x1.rank)
  shapeCasts_S4096x32x1_S4096x32 : S4096x32x1.ShapeCasts S4096x32
  reducesTo_S4096x32x512_S4096x512_d1 : S4096x32x512.ReducesTo [1] S4096x512
  bcast_S_S4096x512 : S_.BroadcastsInDim S4096x512 (![] : Fin 0 → Fin S4096x512.rank)
  bcast_S_S4096x32 : S_.BroadcastsInDim S4096x32 (![] : Fin 0 → Fin S4096x32.rank)
  reducesTo_S4096x32_S_d0_1 : S4096x32.ReducesTo [0, 1] S_
  bcast_S_S131072 : S_.BroadcastsInDim S131072 (![] : Fin 0 → Fin S131072.rank)
  shapeCasts_S4096x32_S131072 : S4096x32.ShapeCasts S131072
  bcast_S131072_S131072x1_0 : S131072.BroadcastsInDim S131072x1 (![0] : Fin 1 → Fin S131072x1.rank)
  dot_S4096x32x1024_S1024x512_S4096x32x512_2_0_01_1_n_n_wf : DotDims.WF S4096x32x1024 S1024x512 S4096x32x512 [2] [0] [0, 1] [1] [] []
  dot_S4096x32x512_S512x1_S4096x32x1_2_0_01_1_n_n_wf : DotDims.WF S4096x32x512 S512x1 S4096x32x1 [2] [0] [0, 1] [1] [] []
  scatter_S131072_S131072x1_S131072_n_0_0_1_wf : ScatterDims.WF S131072 S131072x1 S131072 [] [0] [0] 1

variable [Facts₀]

def dot_S4096x32x1024_S1024x512_S4096x32x512_2_0_01_1_n_n : DotDims S4096x32x1024 S1024x512 S4096x32x512 where
  lhsContracting := [2]
  rhsContracting := [0]
  lhsNonContracting := [0, 1]
  rhsNonContracting := [1]
  lhsBatch := []
  rhsBatch := []
  wf := dot_S4096x32x1024_S1024x512_S4096x32x512_2_0_01_1_n_n_wf
def dot_S4096x32x512_S512x1_S4096x32x1_2_0_01_1_n_n : DotDims S4096x32x512 S512x1 S4096x32x1 where
  lhsContracting := [2]
  rhsContracting := [0]
  lhsNonContracting := [0, 1]
  rhsNonContracting := [1]
  lhsBatch := []
  rhsBatch := []
  wf := dot_S4096x32x512_S512x1_S4096x32x1_2_0_01_1_n_n_wf
def scatter_S131072_S131072x1_S131072_n_0_0_1 : ScatterDims S131072 S131072x1 S131072 where
  updateWindowDims := []
  insertedWindowDims := [0]
  scatterDimsToOperandDims := [0]
  indexVectorDim := 1
  wf := scatter_S131072_S131072x1_S131072_n_0_0_1_wf

class Facts : Prop extends Facts₀ where

variable [Facts]
-- ==== Proof.LibRank3.lean ====
/-
  Rank-three arrays read at an index.

  A keepdims cast adds a unit axis without moving an entry; a broadcast repeats an array along its unit axes; a sum over
  one axis of an `[a, b, c]` array leaves one entry per pair of the other two coordinates.  Each lemma reads one such
  operation at an index written by its coordinates.
-/
import Idealize.ShloMosaic.Lib.Pipeline.Value
import Idealize.ShloMosaic.Lib.ValueIdx
import Idealize.ShloMosaic.PureOps.Ideal
import Idealize.ShloMosaic.PureOps.Ideal.Laws

noncomputable section

open scoped BigOperators

namespace Idealize.ShloMosaic.LibRank3

open Idealize.ShloMosaic Idealize.ShloMosaic.ValueIdx

variable {α : Type}

/-! ## Casts that add a unit axis -/

/-- An `[a, b]` array cast to `[a, b, 1]` reads, at `(p, q, u)`, the operand at `(p, q)`. -/
theorem cast_ab_ab1 {a b : ℕ} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) :=
  shapeCast_apply v h _ _ (by
    have hu : u.val = 0 := by omega
    rw [Shape.rowMajor_val_two, Shape.rowMajor_val_three]
    show p.val * b + q.val = (p.val * b + q.val) * 1 + u.val
    rw [hu, Nat.mul_one, Nat.add_zero])

/-- A `[c]` array cast to `[1, 1, c]` reads, at `(u, w, r)`, the operand at `r`. -/
theorem cast_c_11c {c : ℕ} (v : (⟨1, ![c]⟩ : Shape).Idx → α)
    (h : (⟨1, ![c]⟩ : Shape).ShapeCasts ⟨3, ![1, 1, c]⟩) (u w : Fin 1) (r : Fin c) :
    shapeCast ⟨3, ![1, 1, c]⟩ v h (ix3 u w r) = v (ix1 r) :=
  shapeCast_apply v h _ _ (by
    have hu : u.val = 0 := by omega
    have hw : w.val = 0 := by omega
    rw [Shape.rowMajor_val_one, Shape.rowMajor_val_three]
    show r.val = (u.val * 1 + w.val) * c + r.val
    rw [hu, hw]; simp)

/-- An `[a, c]` array cast to `[a, 1, c]` reads, at `(p, u, r)`, the operand at `(p, r)`. -/
theorem cast_ac_a1c {a c : ℕ} (v : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ v h (ix3 p u r) = v (ix2 p r) :=
  shapeCast_apply v h _ _ (by
    have hu : u.val = 0 := by omega
    rw [Shape.rowMajor_val_two, Shape.rowMajor_val_three]
    show p.val * c + r.val = (p.val * 1 + u.val) * c + r.val
    rw [hu, Nat.mul_one, Nat.add_zero])

/-- A `[1]` array cast to `[1, 1]` reads, at `(u, w)`, the operand's one entry. -/
theorem cast_1_11 (v : (⟨1, ![1]⟩ : Shape).Idx → α)
    (h : (⟨1, ![1]⟩ : Shape).ShapeCasts ⟨2, ![1, 1]⟩) (u w : Fin 1) :
    shapeCast ⟨2, ![1, 1]⟩ v h (ix2 u w) = v (ix1 (0 : Fin 1)) :=
  shapeCast_apply v h _ _ (by
    have hu : u.val = 0 := by omega
    have hw : w.val = 0 := by omega
    rw [Shape.rowMajor_val_one, Shape.rowMajor_val_two]
    show 0 = u.val * 1 + w.val
    rw [hu, hw])

/-! ## Broadcasts along unit axes -/

/-- An `[a, b, 1]` array broadcast to `[a, b, c]` reads, at `(p, q, r)`, the operand at `(p, q, 0)`. -/
theorem bcast_ab1_abc {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, 1, c]` array broadcast to `[a, b, c]` reads, at `(p, q, r)`, the operand at `(0, 0, r)`. -/
theorem bcast_11c_abc {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An `[a, 1, c]` array broadcast to `[a, b, c]` reads, at `(p, q, r)`, the operand at `(p, 0, r)`. -/
theorem bcast_a1c_abc {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, 1]` array broadcast to `[a, b]` reads, everywhere, the operand's one entry. -/
theorem bcast_11_ab {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-! ## Sums along one axis -/

variable {φ : FTy}

/-- The pair `(p, q)` with the coordinate `k` put back on the last axis is `(p, q, k)`. -/
theorem lift_last {a b c : ℕ} (h : (⟨3, ![a, b, c]⟩ : Shape).Reduces [2] ⟨2, ![a, b]⟩) (p : Fin a) (q : Fin b) (k : Fin c) :
    h.lift (ix2 p q) k = ix3 p q k :=
  funext fun ax => Fin.ext (by match ax with | ⟨0, _⟩ => rfl | ⟨1, _⟩ => rfl | ⟨2, _⟩ => rfl)

/-- The sum of an `[a, b, c]` array over its last axis, at `(p, q)`. -/
theorem sum_last {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last h p q k))

/-- The pair `(p, r)` with the coordinate `l` put back on the middle axis is `(p, l, r)`. -/
theorem lift_mid {a b c : ℕ} (h : (⟨3, ![a, b, c]⟩ : Shape).Reduces [1] ⟨2, ![a, c]⟩) (p : Fin a) (r : Fin c) (l : Fin b) :
    h.lift (ix2 p r) l = ix3 p l r :=
  funext fun ax => Fin.ext (by match ax with | ⟨0, _⟩ => rfl | ⟨1, _⟩ => rfl | ⟨2, _⟩ => rfl)

/-- The sum of an `[a, b, c]` array over its middle axis, at `(p, r)`. -/
theorem sum_mid {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (r : Fin c) :
    multiReduction .add [1] ⟨2, ![a, c]⟩ src acc h hφ hacc (ix2 p r) = ∑ l : Fin b, src (ix3 p l r) :=
  (Ideal.multiReduction_add_single src acc h hφ hacc (ix2 p r)).trans
    (Finset.sum_congr rfl fun l _ => congrArg src (lift_mid h p r l))

end Idealize.ShloMosaic.LibRank3

end
-- ==== Proof.LibFlatten.lean ====
/-
  Two leading axes merged into one, and one leading axis split in two.

  A shape cast keeps the row-major order of the entries. So an `[A, B, C]` array cast to `[N, C]` (`N = A · B`) has, in
  row `p · B + n`, the row `(p, n)` of the operand, and the cast back reads the same entries the other way round.
  The row index `r` is a variable with the equation `r = p · B + n`, so that the lemmas apply whatever way a program's
  text spells the merged extent.
-/
import Idealize.ShloMosaic.Lib.Pipeline.Value
import Idealize.ShloMosaic.Lib.ValueIdx

namespace Idealize.ShloMosaic.LibFlatten

open Idealize.ShloMosaic Idealize.ShloMosaic.ValueIdx

variable {α : Type}

/-- An `[A, B, C]` array cast to `[N, C]` reads, at `(r, k)` with `r = p · B + n`, the operand at `(p, n, k)`. -/
theorem merge_apply {A B C N : ℕ} (v : (⟨3, ![A, B, C]⟩ : Shape).Idx → α)
    (h : (⟨3, ![A, B, C]⟩ : Shape).ShapeCasts ⟨2, ![N, C]⟩) (p : Fin A) (n : Fin B) (k : Fin C) (r : Fin N)
    (hr : r.val = p.val * B + n.val) : shapeCast ⟨2, ![N, C]⟩ v h (ix2 r k) = v (ix3 p n k) :=
  shapeCast_apply v h _ _ (by
    rw [Shape.rowMajor_val_three, Shape.rowMajor_val_two]
    show (p.val * B + n.val) * C + k.val = r.val * C + k.val
    rw [hr])

/-- An `[N, C]` array cast to `[A, B, C]` reads, at `(p, n, k)`, the operand at `(r, k)` with `r = p · B + n`. -/
theorem split_apply {A B C N : ℕ} (v : (⟨2, ![N, C]⟩ : Shape).Idx → α)
    (h : (⟨2, ![N, C]⟩ : Shape).ShapeCasts ⟨3, ![A, B, C]⟩) (p : Fin A) (n : Fin B) (k : Fin C) (r : Fin N)
    (hr : r.val = p.val * B + n.val) : shapeCast ⟨3, ![A, B, C]⟩ v h (ix3 p n k) = v (ix2 r k) :=
  shapeCast_apply v h _ _ (by
    rw [Shape.rowMajor_val_three, Shape.rowMajor_val_two]
    show r.val * C + k.val = (p.val * B + n.val) * C + k.val
    rw [hr])

end Idealize.ShloMosaic.LibFlatten
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«113750_j29892972380504_2_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.LibColumnBroadcast.lean ====
/-
  One column broadcast over many.

  A keepdims column `[a, 1]` broadcast to `[a, b]` holds, at `(p, c)`, the column's entry of row `p`: the operand's second
  axis is a unit axis, so the broadcast reads it at `0`, and the first axis is carried along.
-/
import Idealize.ShloMosaic.Lib.Pipeline.Value
import Idealize.ShloMosaic.Lib.ValueIdx

namespace Idealize.ShloMosaic.LibColumnBroadcast

open Idealize.ShloMosaic Idealize.ShloMosaic.ValueIdx

variable {α : Type}

/-- An `[a, 1]` array broadcast to `[a, b]` reads, at `(p, c)`, the operand's entry `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.LibColumnBroadcast
-- ==== Proof.Spec.lean ====
/-
  The mathematics of the gated message aggregation, on the extended reals.

  For a node `n` and a slot `l` the message row is the edge feature plus the cosine time code of
  `dt = ts(n,l) − last_update(n)`; it is projected through the upper half of `W0`, the node's memory row through the
  lower half, and the bias added: this is `proj`, and the reference's single product of the concatenated row of 1024
  entries with the whole of `W0` is the same number, because a sum over 1024 indices is the sum over the first 512 plus
  the sum over the last 512 and addition on the extended reals is associative (`proj_ref`).  Everything after is a
  function of that row of 512: its mean and variance, the affine normalisation, the gate (a weighted sum plus bias),
  the logistic stretched to `[−0.2, 1]` and clipped to `[0, 1]`, and the hard threshold at one half.  The clipped
  value lies between 0 and 1, so it is a real number, and adding to it the difference between the threshold bit and
  itself gives the bit back (`hard_ref`): the straight-through form of the reference.
-/
import Idealize.ShloMosaic.PureOps.Ideal
import Idealize.ShloMosaic.PureOps.Ideal.Laws
import Idealize.ShloMosaic.PureOps.IdealRules
import Idealize.ShloMosaic.Lib.ValueIdx

noncomputable section

open scoped BigOperators

namespace Cert.HardGate

open Idealize.ShloMosaic Idealize.ShloMosaic.ValueIdx

/-- The extended real an f32 word denotes. -/
abbrev wd (b : BitVec 32) : EReal := Ideal.ofBits .f32 b

theorem wd_zero : wd 0x00000000#32 = 0 := Ideal.ofBits_zero_f32
theorem wd_one : wd 0x3F800000#32 = 1 := IdealRules.sign_bit.ideal_onePat .f32

/-! ## Splitting a sum over 1024 indices -/

/-- Index `k` of the first half. -/
def lo (k : Fin 512) : Fin 1024 := ⟨k.val, by omega⟩
/-- Index `k` of the second half. -/
def hi (k : Fin 512) : Fin 1024 := ⟨512 + k.val, by omega⟩

theorem sum_halves (f : Fin 1024 → EReal) : ∑ k : Fin 1024, f k = (∑ k : Fin 512, f (lo k)) + ∑ k : Fin 512, f (hi k) :=
  Fin.sum_univ_add (a := 512) (b := 512) f

/-! ## One row -/

/-- The message row: feature plus time code. -/
def msgRow (feat : Fin 512 → EReal) (dt : EReal) (basis phase : Fin 512 → EReal) (k : Fin 512) : EReal :=
  feat k + Ideal.cos (dt * basis k + phase k)

/-- The projected row, the two halves of the weight matrix applied separately. -/
def proj (msg memr : Fin 512 → EReal) (Wt Wb : Fin 512 → Fin 512 → EReal) (b0 : Fin 512 → EReal) (j : Fin 512) : EReal :=
  (∑ k, msg k * Wt k j) + ((∑ k, memr k * Wb k j) + b0 j)

/-- One product with the concatenated row is the two halves' sum. -/
theorem proj_ref (cat : Fin 1024 → EReal) (W : Fin 1024 → Fin 512 → EReal) (b0 : Fin 512 → EReal) (j : Fin 512) :
    (∑ k : Fin 1024, cat k * W k j) + b0 j
      = proj (fun k => cat (lo k)) (fun k => cat (hi k)) (fun k => W (lo k)) (fun k => W (hi k)) b0 j := by
  unfold proj
  rw [sum_halves (fun k => cat k * W k j), add_assoc]

def mean (r : Fin 512 → EReal) : EReal := Ideal.div (∑ j, r j) (wd 0x44000000#32)

def var (r : Fin 512 → EReal) : EReal := Ideal.div (∑ j, (r j - mean r) * (r j - mean r)) (wd 0x44000000#32)

def normed (r g b : Fin 512 → EReal) (j : Fin 512) : EReal :=
  (r j - mean r) * Ideal.rsqrt (var r + wd 0x3727C5AC#32) * g j + b j

def gate (r g b w1 : Fin 512 → EReal) (b1 : EReal) : EReal := (∑ j, normed r g b j * w1 j) + b1

/-- The numerator of the gate's logit: `log u − log(1 − u) + (gate + 3)`. -/
def numer (gt u : EReal) : EReal :=
  Ideal.log u - Ideal.log1p (wd 0x00000000#32 - u) + (gt + wd 0x40400000#32)

/-- The stretched logistic clipped to `[0, 1]`. -/
def soft (x : EReal) : EReal :=
  min (wd 0x3F800000#32) (max (wd 0x00000000#32) (Ideal.logistic x * wd 0x3F99999A#32 + wd 0xBE4CCCCD#32))

/-- The threshold at one half, as the number 0 or 1. -/
def hard (s : EReal) : EReal := ((((Ideal.cmp .ogt s (wd 0x3F000000#32)).setWidth 32).toInt : ℝ) : EReal)

/-- The mean over the 32 slots. -/
def memOut (col : Fin 32 → EReal) : EReal := Ideal.div (∑ l, col l) (wd 0x42000000#32)

/-! ## The same numbers as the reference spells them -/

/-- A sum started from the zero word. -/
theorem zero_add_sum {ι : Type*} [Fintype ι] (f : ι → EReal) : wd 0x00000000#32 + ∑ k, f k = ∑ k, f k := by
  rw [wd_zero, zero_add]

theorem numer_ref (gt u : EReal) : Ideal.log u - Ideal.log1p (-u) + (gt + wd 0x40400000#32) = numer gt u := by
  unfold numer
  rw [wd_zero, zero_sub]

theorem logistic_ref (x : EReal) :
    Ideal.div (wd 0x3F800000#32) (wd 0x3F800000#32 + Ideal.exp (-x)) = Ideal.logistic x := by
  rw [wd_one]; rfl

theorem soft_real (x : EReal) : ∃ r : ℝ, soft x = (r : EReal) := by
  unfold soft
  rw [wd_one, wd_zero]
  generalize Ideal.logistic x * wd 0x3F99999A#32 + wd 0xBE4CCCCD#32 = y
  have hle : min 1 (max 0 y) ≤ 1 := min_le_left _ _
  have hge : (0 : EReal) ≤ min 1 (max 0 y) := le_min zero_le_one (le_max_left _ _)
  exact ⟨(min 1 (max 0 y)).toReal,
    (EReal.coe_toReal (ne_top_of_le_ne_top (by rw [← EReal.coe_one]; exact EReal.coe_ne_top 1 : (1 : EReal) ≠ ⊤) hle) (ne_bot_of_le_ne_bot (by rw [← EReal.coe_zero]; exact EReal.coe_ne_bot 0 : (0 : EReal) ≠ ⊥) hge)).symm⟩

theorem bit_toInt (b : BitVec 1) : (b.setWidth 32).toInt = (b.toNat : ℤ) := by
  rcases (by decide : ∀ b : BitVec 1, b = 0#1 ∨ b = 1#1) b with rfl | rfl <;> decide

/-- Straight-through: the clipped value plus (bit − clipped value) is the bit. -/
theorem hard_ref (x : EReal) :
    soft x + ((((Ideal.cmp .ogt (soft x) (wd 0x3F000000#32)).toNat : ℝ) : EReal) - soft x) = hard (soft x) := by
  obtain ⟨r, hr⟩ := soft_real x
  unfold hard
  rw [hr]
  generalize Ideal.cmp .ogt (r : EReal) (wd 0x3F000000#32) = b
  have hb : (((b.setWidth 32).toInt : ℝ)) = ((b.toNat : ℝ)) := by
    rw [bit_toInt b]; simp
  rw [hb, ← EReal.coe_sub, ← EReal.coe_add, add_sub_cancel]

/-! ## The whole arrays -/

section Arrays

variable (feat : (⟨3, ![4096, 32, 512]⟩ : Shape).Idx → EReal) (ts : (⟨2, ![4096, 32]⟩ : Shape).Idx → EReal)
  (lu : (⟨1, ![4096]⟩ : Shape).Idx → EReal) (mem : (⟨2, ![4096, 512]⟩ : Shape).Idx → EReal)
  (u : (⟨2, ![4096, 32]⟩ : Shape).Idx → EReal) (basis phase : (⟨1, ![512]⟩ : Shape).Idx → EReal)
  (W0 : (⟨2, ![1024, 512]⟩ : Shape).Idx → EReal) (b0 g lb : (⟨1, ![512]⟩ : Shape).Idx → EReal)
  (W1 : (⟨2, ![512, 1]⟩ : Shape).Idx → EReal) (b1 : (⟨1, ![1]⟩ : Shape).Idx → EReal)

/-- The projected row of node `n`, slot `l`. -/
def fmAt (n : Fin 4096) (l : Fin 32) : Fin 512 → EReal :=
  proj (msgRow (fun k => feat (ix3 n l k)) (ts (ix2 n l) - lu (ix1 n)) (fun k => basis (ix1 k)) (fun k => phase (ix1 k)))
    (fun k => mem (ix2 n k)) (fun k j => W0 (ix2 (lo k) j)) (fun k j => W0 (ix2 (hi k) j)) (fun j => b0 (ix1 j))

def gateAt (n : Fin 4096) (l : Fin 32) : EReal :=
  gate (fmAt feat ts lu mem basis phase W0 b0 n l) (fun j => g (ix1 j)) (fun j => lb (ix1 j))
    (fun j => W1 (ix2 j (0 : Fin 1))) (b1 (ix1 (0 : Fin 1)))

def hardAt (n : Fin 4096) (l : Fin 32) : EReal :=
  hard (soft (Ideal.div (numer (gateAt feat ts lu mem basis phase W0 b0 g lb W1 b1 n l) (u (ix2 n l))) (wd 0x3EAAAAAB#32)))

def memOutAt (n : Fin 4096) (j : Fin 512) : EReal :=
  memOut (fun l => fmAt feat ts lu mem basis phase W0 b0 n l j)

/-- The gate array. -/
def gateArr : (⟨2, ![4096, 32]⟩ : Shape).Idx → EReal :=
  fun i => gateAt feat ts lu mem basis phase W0 b0 g lb W1 b1 (i 0) (i 1)
/-- The thresholded array. -/
def hardArr : (⟨2, ![4096, 32]⟩ : Shape).Idx → EReal :=
  fun i => hardAt feat ts lu mem u basis phase W0 b0 g lb W1 b1 (i 0) (i 1)
/-- The slot-averaged memory array. -/
def memOutArr : (⟨2, ![4096, 512]⟩ : Shape).Idx → EReal :=
  fun i => memOutAt feat ts lu mem basis phase W0 b0 (i 0) (i 1)

end Arrays

end Cert.HardGate

end
-- ==== Proof.KernelRow.lean ====
/-
  The kernel body's values, read entry by entry.

  One grid point works on a block of 32 nodes.  Its projected array at `(p, l, j)` is the row function `proj` of node
  `p`'s message row for slot `l` (feature plus cosine time code, multiplied through the upper weight block as one
  `[1024, 512] × [512, 512]` product over the 32 · 32 rows laid out one after another) and of its memory row (through the
  lower block), plus the bias.  The row mean, the gate, the slot average and the threshold are then the row functions of
  the specification applied to that row: each lemma peels one operation off the body's term.
-/
import proofs.«113750_j29892972380504_2_alg».proof.Proof.Gen.KernelIdeal.Skeleton
import proofs.«113750_j29892972380504_2_alg».proof.Proof.LibRank3
import proofs.«113750_j29892972380504_2_alg».proof.Proof.LibFlatten
import proofs.«113750_j29892972380504_2_alg».proof.Proof.LibMatmul2
import proofs.«113750_j29892972380504_2_alg».proof.Proof.LibColumnBroadcast
import proofs.«113750_j29892972380504_2_alg».proof.Proof.Spec
import Idealize.ShloMosaic.Lib.Pipeline.Value
import Idealize.ShloMosaic.Lib.ValueIdx
import Idealize.ShloMosaic.Lib.ValueLayout

noncomputable section

open scoped BigOperators

namespace Cert.KernelIdeal.RowValue

open Cert.KernelIdeal Cert.KernelIdeal.Gen Idealize.ShloMosaic Idealize.ShloMosaic.ValueIdx Cert.HardGate
open Idealize.ShloMosaic.LibRank3

/-! ## The two products' free axes -/

theorem big_lhs0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem big_rhs1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

theorem small_lhs0 (i : S32x512.Idx) (q : dot_S32x512_S512x512_S32x512_1_0_0_1_n_n.contr.Idx) :
    (dot_S32x512_S512x512_S32x512_1_0_0_1_n_n.lhsIdx i q 0).val = (i 0).val := by
  unfold DotDims.lhsIdx
  rw [dif_neg (show ¬(0 : Fin S32x512.rank) ∈ dot_S32x512_S512x512_S32x512_1_0_0_1_n_n.lhsBatch by decide), dif_pos (show (0 : Fin S32x512.rank) ∈ dot_S32x512_S512x512_S32x512_1_0_0_1_n_n.lhsNonContracting by decide)]
  rfl
theorem small_rhs1 (i : S32x512.Idx) (q : dot_S32x512_S512x512_S32x512_1_0_0_1_n_n.contr.Idx) :
    (dot_S32x512_S512x512_S32x512_1_0_0_1_n_n.rhsIdx i q 1).val = (i 1).val := by
  unfold DotDims.rhsIdx
  rw [dif_neg (show ¬(1 : Fin S512x512.rank) ∈ dot_S32x512_S512x512_S32x512_1_0_0_1_n_n.rhsBatch by decide), dif_pos (show (1 : Fin S512x512.rank) ∈ dot_S32x512_S512x512_S32x512_1_0_0_1_n_n.rhsNonContracting by decide)]
  rfl

/-! ## The projected array -/

/-- Entry `(p, l, j)` of the block's projected array. -/
theorem pay2_apply (v0 : Vec Ideal S32x32 .f32) (v1 : Vec Ideal S32x1 .f32) (v5 v6 : Vec Ideal S512 .f32) (v16 : Vec Ideal S32x32x512 .f32) (v19 : Vec Ideal S512x512 .f32) (v22 : Vec Ideal S32x512 .f32) (v24 : Vec Ideal S512x512 .bf16) (v27 : Vec Ideal S512 .f32) (p l : Fin 32) (j : Fin 512) :
    k0_pay2 (F := Ideal) v0 v1 v5 v6 v16 v19 v22 v24 v27 (ix3 p l j)
      = proj (msgRow (fun k => v16 (ix3 p l k)) (v0 (ix2 p l) - v1 (ix2 p (0 : Fin 1))) (fun k => v5 (ix1 k)) (fun k => v6 (ix1 k)))
          (fun k => v22 (ix2 p k)) (fun k j => v19 (ix2 k j)) (fun k j => v24 (ix2 k j)) (fun j => v27 (ix1 j)) j := by
  unfold k0_pay2 proj
  dsimp only
  refine (addf_apply _ _ _).trans (congrArg₂ (· + ·) ?_ ?_)
  · -- rows of the big product are the pairs (p, l) in row-major order
    refine (LibFlatten.split_apply _ _ p l j ⟨p.val * 32 + l.val, by omega⟩ rfl).trans ?_
    refine (LibMatmul2.matmul_zero_apply dot_S1024x512_S512x512_S1024x512_1_0_0_1_n_n rfl rfl rfl rfl big_lhs0 big_rhs1 (some .fp32) _ _ _ j).trans ?_
    refine Finset.sum_congr rfl fun k _ => congrArg₂ (· * ·) ?_ (congrFun (shapeCast_self v19 _) _)
    refine (LibFlatten.merge_apply _ _ p l k ⟨p.val * 32 + l.val, by omega⟩ rfl).trans ?_
    unfold msgRow
    refine (addf_apply _ _ _).trans (congrArg₂ (· + ·) rfl (congrArg Ideal.cos ?_))
    refine (addf_apply _ _ _).trans (congrArg₂ (· + ·) ?_ ?_)
    · refine (mulf_apply _ _ _).trans (congrArg₂ (· * ·) ?_ ?_)
      · refine (bcast_ab1_abc _ _ p l k).trans ((cast_ab_ab1 _ _ p l 0).trans ?_)
        refine (subf_apply _ _ _).trans (congrArg₂ (· - ·) rfl ?_)
        exact (LibColumnBroadcast.broadcastTo_a1_ab_apply _ _ p l).trans (congrFun (shapeCast_self v1 _) _)
      · exact (bcast_11c_abc _ _ p l k).trans (cast_c_11c _ _ 0 0 k)
    · exact (bcast_11c_abc _ _ p l k).trans (cast_c_11c _ _ 0 0 k)
  · refine (bcast_a1c_abc _ _ p l j).trans ((cast_ac_a1c _ _ p 0 j).trans ?_)
    refine (addf_apply _ _ _).trans (congrArg₂ (· + ·) ?_ ?_)
    · refine (LibMatmul2.matmul_zero_apply dot_S32x512_S512x512_S32x512_1_0_0_1_n_n rfl rfl rfl rfl small_lhs0 small_rhs1 none _ _ p j).trans ?_
      exact Finset.sum_congr rfl fun k _ => congrArg₂ (· * ·) rfl (congrFun (shapeCast_self v24 _) _)
    · exact (broadcastTo_1b_ab_apply _ _ p j).trans (shapeCast_a_1a_apply _ _ 0 j)

/-- The row mean the body keeps as a `[32, 32, 1]` column. -/
theorem pay3_apply (v0 : Vec Ideal S32x32 .f32) (v1 : Vec Ideal S32x1 .f32) (v5 v6 : Vec Ideal S512 .f32) (v16 : Vec Ideal S32x32x512 .f32) (v19 : Vec Ideal S512x512 .f32) (v22 : Vec Ideal S32x512 .f32) (v24 : Vec Ideal S512x512 .bf16) (v27 : Vec Ideal S512 .f32) (p l : Fin 32) (u : Fin 1) :
    k0_pay3 (F := Ideal) v0 v1 v5 v6 v16 v19 v22 v24 v27 (ix3 p l u) = mean (fun j => k0_pay2 (F := Ideal) v0 v1 v5 v6 v16 v19 v22 v24 v27 (ix3 p l j)) := by
  unfold k0_pay3 mean
  dsimp only
  refine (divf_apply _ _ _).trans (congrArg₂ Ideal.div ?_ rfl)
  exact (cast_ab_ab1 _ _ p l u).trans (sum_last _ _ _ _ _ p l)

/-! ## The gate -/

/-- The gate at `(p, l)`, from ANY projected array and any column holding its row means. -/
theorem pay4_apply (v34 : FVec Ideal S32x32x512 .f32) (v38 : FVec Ideal S32x32x1 .f32) (v53 v57 v61 : Vec Ideal S512 .f32) (v67 : Vec Ideal S1 .f32) (p l : Fin 32)
    (hm : v38 (ix3 p l (0 : Fin 1)) = mean (fun j => v34 (ix3 p l j))) :
    k0_pay4 (F := Ideal) v34 v38 v53 v57 v61 v67 (ix2 p l)
      = gate (fun j => v34 (ix3 p l j)) (fun j => v53 (ix1 j)) (fun j => v57 (ix1 j)) (fun j => v61 (ix1 j)) (v67 (ix1 (0 : Fin 1))) := by
  have hc : ∀ j : Fin 512, subf v34 (broadcastTo S32x32x512 v38 broadcasts_S32x32x1_S32x32x512) (ix3 p l j)
      = v34 (ix3 p l j) - mean (fun j => v34 (ix3 p l j)) := fun j =>
    (subf_apply _ _ _).trans (congrArg₂ (· - ·) rfl ((bcast_ab1_abc _ _ p l j).trans hm))
  unfold k0_pay4 gate
  dsimp only
  refine (addf_apply _ _ _).trans (congrArg₂ (· + ·) ?_ ?_)
  · refine (sum_last _ _ _ _ _ p l).trans (Finset.sum_congr rfl fun j _ => ?_)
    refine (mulf_apply _ _ _).trans (congrArg₂ (· * ·) ?_ ?_)
    · unfold normed
      refine (addf_apply _ _ _).trans (congrArg₂ (· + ·) ?_ ?_)
      · refine (mulf_apply _ _ _).trans (congrArg₂ (· * ·) ?_ ?_)
        · refine (mulf_apply _ _ _).trans (congrArg₂ (· * ·) (hc j) ?_)
          refine (bcast_ab1_abc _ _ p l j).trans (congrArg Ideal.rsqrt ?_)
          refine (addf_apply _ _ _).trans (congrArg₂ (· + ·) ?_ rfl)
          unfold var
          refine (divf_apply _ _ _).trans (congrArg₂ Ideal.div ?_ rfl)
          refine (cast_ab_ab1 _ _ p l 0).trans ((sum_last _ _ _ _ _ p l).trans (Finset.sum_congr rfl fun j' _ => ?_))
          exact (mulf_apply _ _ _).trans (congrArg₂ (· * ·) (hc j') (hc j'))
        · exact (bcast_11c_abc _ _ p l j).trans (cast_c_11c _ _ 0 0 j)
      · exact (bcast_11c_abc _ _ p l j).trans (cast_c_11c _ _ 0 0 j)
    · exact (bcast_11c_abc _ _ p l j).trans ((cast_c_11c _ _ 0 0 j).trans (congrFun (shapeCast_self v61 _) _))
  · exact (bcast_11_ab _ _ p l).trans (cast_1_11 _ _ 0 0)

/-! ## The slot average, the logit and the threshold -/

theorem pay5_apply (v34 : FVec Ideal S32x32x512 .f32) (p : Fin 32) (j : Fin 512) :
    k0_pay5 (F := Ideal) v34 (ix2 p j) = memOut (fun l => v34 (ix3 p l j)) := by
  unfold k0_pay5 memOut
  dsimp only
  exact (divf_apply _ _ _).trans (congrArg₂ Ideal.div (sum_mid _ _ _ _ _ p j) rfl)

theorem pay6_apply (v34 : FVec Ideal S32x32x512 .f32) (v38 : FVec Ideal S32x32x1 .f32) (v53 v57 v61 : Vec Ideal S512 .f32) (v67 : Vec Ideal S1 .f32) (v74 : Vec Ideal S32x32 .f32) (i : S32x32.Idx) :
    k0_pay6 (F := Ideal) v34 v38 v53 v57 v61 v67 v74 i = numer (k0_pay4 (F := Ideal) v34 v38 v53 v57 v61 v67 i) (v74 i) := rfl

theorem pay7_apply (i : S32x32.Idx) : k0_pay7 (F := Ideal) i = wd 0x3EAAAAAB#32 := rfl

theorem pay1_apply (v82 v83 : FVec Ideal S32x32 .f32) (i : S32x32.Idx) :
    k0_pay1 (F := Ideal) v82 v83 i = hard (soft (Ideal.div (v82 i) (v83 i))) := rfl

end Cert.KernelIdeal.RowValue

end
-- ==== Proof.LibColumn.lean ====
/-
  Keepdims columns.

  A vector of `a` entries viewed as a column `[a, 1]` holds entry `i` at `(i, 0)`: the row-major position of `(i, u)` in
  `[a, 1]` is `i · 1 + u = i`.
-/
import Idealize.ShloMosaic.Lib.Pipeline.Value
import Idealize.ShloMosaic.Lib.ValueIdx

namespace Idealize.ShloMosaic.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.LibColumn
-- ==== Proof.KernelBlocks.lean ====
/-
  One grid point of the kernel, in terms of the argument arrays.

  Point `t` of the 128 works on nodes `32 t … 32 t + 31`: its blocks of the feature, time, last-update, memory and
  noise arrays are those rows, and its blocks of the parameter arrays are the whole arrays (the upper and lower halves of
  the weight matrix, the last-update vector as a column and the gate weights as a vector having been laid out by the host
  before the region).  So row `p` of the block is the specification's row of node `32 t + p`: its projected rows, its
  gates, its thresholded gates and its slot averages.
-/
import proofs.«113750_j29892972380504_2_alg».proof.Proof.Gen.KernelIdeal.Frame
import proofs.«113750_j29892972380504_2_alg».proof.Proof.KernelRow
import proofs.«113750_j29892972380504_2_alg».proof.Proof.LibColumn

import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.BlockValue

open Cert.KernelIdeal Cert.KernelIdeal.Gen Idealize.ShloMosaic.ValueIdx Cert.HardGate

variable (m : (ℓ : Loc nD τ sig) → Buf (Elt Ideal) ℓ) (ρ : Dev nD → PrngReg)

open Idealize.ShloMosaic.LibRank3

/-! ## Where each window's block sits

The grid has 128 points; point `t` takes rows `32 t … 32 t + 31` of every array that has a node axis, and the whole of
every parameter array. -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

theorem idx_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = t.val ∧ win0_3.index t (1 : Fin 2) = 0 :=
  (by decide +kernel : ∀ t : Fin grid0.N, _)
theorem idx_4 : ∀ t : Fin cfg0.N, win0_4.index t (0 : Fin 2) = t.val ∧ win0_4.index t (1 : Fin 2) = 0 :=
  (by decide +kernel : ∀ t : Fin grid0.N, _)
theorem idx_5 : ∀ t : Fin cfg0.N, win0_5.index t (0 : Fin 1) = 0 :=
  (by decide +kernel : ∀ t : Fin grid0.N, _)
theorem idx_6 : ∀ t : Fin cfg0.N, win0_6.index t (0 : Fin 1) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 1) = 0 :=
  (by decide +kernel : ∀ t : Fin grid0.N, _)
theorem idx_10 : ∀ t : Fin cfg0.N, win0_10.index t (0 : Fin 1) = 0 :=
  (by decide +kernel : ∀ t : Fin grid0.N, _)
theorem idx_11 : ∀ t : Fin cfg0.N, win0_11.index t (0 : Fin 1) = 0 :=
  (by decide +kernel : ∀ t : Fin grid0.N, _)
theorem idx_12 : ∀ t : Fin cfg0.N, win0_12.index t (0 : Fin 1) = 0 :=
  (by decide +kernel : ∀ t : Fin grid0.N, _)
theorem idx_13 : ∀ t : Fin cfg0.N, win0_13.index t (0 : Fin 1) = 0 :=
  (by decide +kernel : ∀ t : Fin grid0.N, _)
theorem idx_14 : ∀ t : Fin cfg0.N, win0_14.index t (0 : Fin 2) = t.val ∧ win0_14.index t (1 : Fin 2) = 0 :=
  (by decide +kernel : ∀ t : Fin grid0.N, _)
theorem idx_15 : ∀ t : Fin cfg0.N, win0_15.index t (0 : Fin 2) = t.val ∧ win0_15.index t (1 : Fin 2) = 0 :=
  (by decide +kernel : ∀ t : Fin grid0.N, _)
theorem idx_16 : ∀ t : Fin cfg0.N, win0_16.index t (0 : Fin 2) = t.val ∧ win0_16.index t (1 : Fin 2) = 0 :=
  (by decide +kernel : ∀ t : Fin grid0.N, _)

/-- The array row of row `p` of block `t`. -/
def rowOf (t : Fin cfg0.N) (p : Fin 32) : Fin 4096 :=
  ⟨32 * t.val + p.val, by have := t.isLt; have h : cfg0.N = 128 := N_0; omega⟩

/-- Block `t` of window 0 holds rows `32 t … 32 t + 31` of its array. -/
theorem iblk0_apply (c : Dev nD) (t : Fin cfg0.N) (y : S32x32x512.Idx) (i : S4096x32x512.Idx) (h0 : (i 0).val = 32 * t.val + (y 0).val) (h1 : (i 1).val = (y 1).val) (h2 : (i 2).val = (y 2).val) :
    (iblk m c 0 t : Vec Ideal S32x32x512 .f32) y = (V m c main_arg0 : S4096x32x512.Idx → EReal) i := by
  obtain ⟨e0, e1, e2⟩ := idx_0 t
  unfold iblk
  rw [View.read_apply]
  show V m c main_arg0 _ = V m c main_arg0 _
  refine congrArg (V m c main_arg0) (funext fun a => Fin.ext ?_)
  match a with
  | ⟨0, _⟩ => show win0_0.index t (0 : Fin 3) * 32 + 1 * (y 0).val = (i 0).val; rw [e0, h0]; omega
  | ⟨1, _⟩ => show win0_0.index t (1 : Fin 3) * 32 + 1 * (y 1).val = (i 1).val; rw [e1, h1]; omega
  | ⟨2, _⟩ => show win0_0.index t (2 : Fin 3) * 512 + 1 * (y 2).val = (i 2).val; rw [e2, h2]; omega

/-- Block `t` of window 1 holds rows `32 t … 32 t + 31` of its array. -/
theorem iblk1_apply (c : Dev nD) (t : Fin cfg0.N) (y : S32x32.Idx) (i : S4096x32.Idx) (h0 : (i 0).val = 32 * t.val + (y 0).val) (h1 : (i 1).val = (y 1).val) :
    (iblk m c 1 t : Vec Ideal S32x32 .f32) y = (V m c main_arg1 : S4096x32.Idx → EReal) i := by
  obtain ⟨e0, e1⟩ := idx_1 t
  unfold iblk
  rw [View.read_apply]
  show V m c main_arg1 _ = V m c main_arg1 _
  refine congrArg (V m c main_arg1) (funext fun a => Fin.ext ?_)
  match a with
  | ⟨0, _⟩ => show win0_1.index t (0 : Fin 2) * 32 + 1 * (y 0).val = (i 0).val; rw [e0, h0]; omega
  | ⟨1, _⟩ => show win0_1.index t (1 : Fin 2) * 32 + 1 * (y 1).val = (i 1).val; rw [e1, h1]; omega

/-- Block `t` of window 2 holds rows `32 t … 32 t + 31` of its array. -/
theorem iblk2_apply (c : Dev nD) (t : Fin cfg0.N) (y : S32x1.Idx) (i : S4096x1.Idx) (h0 : (i 0).val = 32 * t.val + (y 0).val) (h1 : (i 1).val = (y 1).val) :
    (iblk m c 2 t : Vec Ideal S32x1 .f32) y = (V m c main_v0 : S4096x1.Idx → EReal) i := by
  obtain ⟨e0, e1⟩ := idx_2 t
  unfold iblk
  rw [View.read_apply]
  show V m c main_v0 _ = V m c main_v0 _
  refine congrArg (V m c main_v0) (funext fun a => Fin.ext ?_)
  match a with
  | ⟨0, _⟩ => show win0_2.index t (0 : Fin 2) * 32 + 1 * (y 0).val = (i 0).val; rw [e0, h0]; omega
  | ⟨1, _⟩ => show win0_2.index t (1 : Fin 2) * 1 + 1 * (y 1).val = (i 1).val; rw [e1, h1]; omega

/-- Block `t` of window 3 holds rows `32 t … 32 t + 31` of its array. -/
theorem iblk3_apply (c : Dev nD) (t : Fin cfg0.N) (y : S32x512.Idx) (i : S4096x512.Idx) (h0 : (i 0).val = 32 * t.val + (y 0).val) (h1 : (i 1).val = (y 1).val) :
    (iblk m c 3 t : Vec Ideal S32x512 .f32) y = (V m c main_arg3 : S4096x512.Idx → EReal) i := by
  obtain ⟨e0, e1⟩ := idx_3 t
  unfold iblk
  rw [View.read_apply]
  show V m c main_arg3 _ = V m c main_arg3 _
  refine congrArg (V m c main_arg3) (funext fun a => Fin.ext ?_)
  match a with
  | ⟨0, _⟩ => show win0_3.index t (0 : Fin 2) * 32 + 1 * (y 0).val = (i 0).val; rw [e0, h0]; omega
  | ⟨1, _⟩ => show win0_3.index t (1 : Fin 2) * 512 + 1 * (y 1).val = (i 1).val; rw [e1, h1]; omega

/-- Block `t` of window 4 holds rows `32 t … 32 t + 31` of its array. -/
theorem iblk4_apply (c : Dev nD) (t : Fin cfg0.N) (y : S32x32.Idx) (i : S4096x32.Idx) (h0 : (i 0).val = 32 * t.val + (y 0).val) (h1 : (i 1).val = (y 1).val) :
    (iblk m c 4 t : Vec Ideal S32x32 .f32) y = (V m c main_arg4 : S4096x32.Idx → EReal) i := by
  obtain ⟨e0, e1⟩ := idx_4 t
  unfold iblk
  rw [View.read_apply]
  show V m c main_arg4 _ = V m c main_arg4 _
  refine congrArg (V m c main_arg4) (funext fun a => Fin.ext ?_)
  match a with
  | ⟨0, _⟩ => show win0_4.index t (0 : Fin 2) * 32 + 1 * (y 0).val = (i 0).val; rw [e0, h0]; omega
  | ⟨1, _⟩ => show win0_4.index t (1 : Fin 2) * 32 + 1 * (y 1).val = (i 1).val; rw [e1, h1]; omega

/-- Window 5's block is its whole array at every point. -/
theorem iblk5_eq (c : Dev nD) (t : Fin cfg0.N) :
    (iblk m c 5 t : Vec Ideal S512 .f32) = (V m c main_arg5 : S512.Idx → EReal) := by
  have e0 := idx_5 t
  funext y
  unfold iblk
  rw [View.read_apply]
  show V m c main_arg5 _ = V m c main_arg5 _
  refine congrArg (V m c main_arg5) (funext fun a => Fin.ext ?_)
  match a with
  | ⟨0, _⟩ => show win0_5.index t (0 : Fin 1) * 512 + 1 * (y 0).val = (y 0).val; rw [e0]; omega

/-- Window 6's block is its whole array at every point. -/
theorem iblk6_eq (c : Dev nD) (t : Fin cfg0.N) :
    (iblk m c 6 t : Vec Ideal S512 .f32) = (V m c main_arg6 : S512.Idx → EReal) := by
  have e0 := idx_6 t
  funext y
  unfold iblk
  rw [View.read_apply]
  show V m c main_arg6 _ = V m c main_arg6 _
  refine congrArg (V m c main_arg6) (funext fun a => Fin.ext ?_)
  match a with
  | ⟨0, _⟩ => show win0_6.index t (0 : Fin 1) * 512 + 1 * (y 0).val = (y 0).val; rw [e0]; omega

/-- Window 7's block is its whole array at every point. -/
theorem iblk7_eq (c : Dev nD) (t : Fin cfg0.N) :
    (iblk m c 7 t : Vec Ideal S512x512 .f32) = (V m c main_v2 : S512x512.Idx → EReal) := by
  obtain ⟨e0, e1⟩ := idx_7 t
  funext y
  unfold iblk
  rw [View.read_apply]
  show V m c main_v2 _ = V m c main_v2 _
  refine congrArg (V m c main_v2) (funext fun a => Fin.ext ?_)
  match a with
  | ⟨0, _⟩ => show win0_7.index t (0 : Fin 2) * 512 + 1 * (y 0).val = (y 0).val; rw [e0]; omega
  | ⟨1, _⟩ => show win0_7.index t (1 : Fin 2) * 512 + 1 * (y 1).val = (y 1).val; rw [e1]; omega

/-- Window 8's block is its whole array at every point. -/
theorem iblk8_eq (c : Dev nD) (t : Fin cfg0.N) :
    (iblk m c 8 t : Vec Ideal S512x512 .bf16) = (V m c main_v4 : S512x512.Idx → EReal) := by
  obtain ⟨e0, e1⟩ := idx_8 t
  funext y
  unfold iblk
  rw [View.read_apply]
  show V m c main_v4 _ = V m c main_v4 _
  refine congrArg (V m c main_v4) (funext fun a => Fin.ext ?_)
  match a with
  | ⟨0, _⟩ => show win0_8.index t (0 : Fin 2) * 512 + 1 * (y 0).val = (y 0).val; rw [e0]; omega
  | ⟨1, _⟩ => show win0_8.index t (1 : Fin 2) * 512 + 1 * (y 1).val = (y 1).val; rw [e1]; omega

/-- Window 9's block is its whole array at every point. -/
theorem iblk9_eq (c : Dev nD) (t : Fin cfg0.N) :
    (iblk m c 9 t : Vec Ideal S512 .f32) = (V m c main_arg8 : S512.Idx → EReal) := by
  have e0 := idx_9 t
  funext y
  unfold iblk
  rw [View.read_apply]
  show V m c main_arg8 _ = V m c main_arg8 _
  refine congrArg (V m c main_arg8) (funext fun a => Fin.ext ?_)
  match a with
  | ⟨0, _⟩ => show win0_9.index t (0 : Fin 1) * 512 + 1 * (y 0).val = (y 0).val; rw [e0]; omega

/-- Window 10's block is its whole array at every point. -/
theorem iblk10_eq (c : Dev nD) (t : Fin cfg0.N) :
    (iblk m c 10 t : Vec Ideal S512 .f32) = (V m c main_arg9 : S512.Idx → EReal) := by
  have e0 := idx_10 t
  funext y
  unfold iblk
  rw [View.read_apply]
  show V m c main_arg9 _ = V m c main_arg9 _
  refine congrArg (V m c main_arg9) (funext fun a => Fin.ext ?_)
  match a with
  | ⟨0, _⟩ => show win0_10.index t (0 : Fin 1) * 512 + 1 * (y 0).val = (y 0).val; rw [e0]; omega

/-- Window 11's block is its whole array at every point. -/
theorem iblk11_eq (c : Dev nD) (t : Fin cfg0.N) :
    (iblk m c 11 t : Vec Ideal S512 .f32) = (V m c main_arg10 : S512.Idx → EReal) := by
  have e0 := idx_11 t
  funext y
  unfold iblk
  rw [View.read_apply]
  show V m c main_arg10 _ = V m c main_arg10 _
  refine congrArg (V m c main_arg10) (funext fun a => Fin.ext ?_)
  match a with
  | ⟨0, _⟩ => show win0_11.index t (0 : Fin 1) * 512 + 1 * (y 0).val = (y 0).val; rw [e0]; omega

/-- Window 12's block is its whole array at every point. -/
theorem iblk12_eq (c : Dev nD) (t : Fin cfg0.N) :
    (iblk m c 12 t : Vec Ideal S512 .f32) = (V m c main_v1 : S512.Idx → EReal) := by
  have e0 := idx_12 t
  funext y
  unfold iblk
  rw [View.read_apply]
  show V m c main_v1 _ = V m c main_v1 _
  refine congrArg (V m c main_v1) (funext fun a => Fin.ext ?_)
  match a with
  | ⟨0, _⟩ => show win0_12.index t (0 : Fin 1) * 512 + 1 * (y 0).val = (y 0).val; rw [e0]; omega

/-- Window 13's block is its whole array at every point. -/
theorem iblk13_eq (c : Dev nD) (t : Fin cfg0.N) :
    (iblk m c 13 t : Vec Ideal S1 .f32) = (V m c main_arg12 : S1.Idx → EReal) := by
  have e0 := idx_13 t
  funext y
  unfold iblk
  rw [View.read_apply]
  show V m c main_arg12 _ = V m c main_arg12 _
  refine congrArg (V m c main_arg12) (funext fun a => Fin.ext ?_)
  match a with
  | ⟨0, _⟩ => show win0_13.index t (0 : Fin 1) * 1 + 1 * (y 0).val = (y 0).val; rw [e0]; omega

/-- Block `t` of output window 14, read off any array `G`. -/
theorem read14_apply (G : S4096x32.Idx → EReal) (t : Fin cfg0.N) (y : S32x32.Idx) (i : S4096x32.Idx)
    (h0 : (i 0).val = 32 * t.val + (y 0).val) (h1 : (i 1).val = (y 1).val) :
    ((cfg0.win 14).blk t).view.read (Elt Ideal) G y = G i := by
  obtain ⟨e0, e1⟩ := idx_14 t
  rw [View.read_apply]
  show G _ = G _
  refine congrArg G (funext fun a => Fin.ext ?_)
  match a with
  | ⟨0, _⟩ => show win0_14.index t (0 : Fin 2) * 32 + 1 * (y 0).val = (i 0).val; rw [e0, h0]; omega
  | ⟨1, _⟩ => show win0_14.index t (1 : Fin 2) * 32 + 1 * (y 1).val = (i 1).val; rw [e1, h1]; omega

/-- Block `t` of output window 15, read off any array `G`. -/
theorem read15_apply (G : S4096x32.Idx → EReal) (t : Fin cfg0.N) (y : S32x32.Idx) (i : S4096x32.Idx)
    (h0 : (i 0).val = 32 * t.val + (y 0).val) (h1 : (i 1).val = (y 1).val) :
    ((cfg0.win 15).blk t).view.read (Elt Ideal) G y = G i := by
  obtain ⟨e0, e1⟩ := idx_15 t
  rw [View.read_apply]
  show G _ = G _
  refine congrArg G (funext fun a => Fin.ext ?_)
  match a with
  | ⟨0, _⟩ => show win0_15.index t (0 : Fin 2) * 32 + 1 * (y 0).val = (i 0).val; rw [e0, h0]; omega
  | ⟨1, _⟩ => show win0_15.index t (1 : Fin 2) * 32 + 1 * (y 1).val = (i 1).val; rw [e1, h1]; omega

/-- Block `t` of output window 16, read off any array `G`. -/
theorem read16_apply (G : S4096x512.Idx → EReal) (t : Fin cfg0.N) (y : S32x512.Idx) (i : S4096x512.Idx)
    (h0 : (i 0).val = 32 * t.val + (y 0).val) (h1 : (i 1).val = (y 1).val) :
    ((cfg0.win 16).blk t).view.read (Elt Ideal) G y = G i := by
  obtain ⟨e0, e1⟩ := idx_16 t
  rw [View.read_apply]
  show G _ = G _
  refine congrArg G (funext fun a => Fin.ext ?_)
  match a with
  | ⟨0, _⟩ => show win0_16.index t (0 : Fin 2) * 32 + 1 * (y 0).val = (i 0).val; rw [e0, h0]; omega
  | ⟨1, _⟩ => show win0_16.index t (1 : Fin 2) * 512 + 1 * (y 1).val = (i 1).val; rw [e1, h1]; omega

/-! ## The arrays the host prepared before the region -/

theorem V_v0 (c : Dev nD) : (V m c main_v0 : S4096x1.Idx → EReal) = shapeCast S4096x1 (m ((c : Thread nD τ).loc main_arg2)) shapeCasts_S4096_S4096x1 := by
  show StableHlo.after hostOps0 (fun b => m (c, b)) (Proc.devRef .tc main_v0) = _
  after_results
  all_goals rfl

theorem V_v1 (c : Dev nD) : (V m c main_v1 : S512.Idx → EReal) = shapeCast S512 (m ((c : Thread nD τ).loc main_arg11)) shapeCasts_S512x1_S512 := by
  show StableHlo.after hostOps0 (fun b => m (c, b)) (Proc.devRef .tc main_v1) = _
  after_results
  all_goals rfl

theorem V_v2 (c : Dev nD) : (V m c main_v2 : S512x512.Idx → EReal)
    = extractStridedSlice S512x512 ![0, 0] (m ((c : Thread nD τ).loc main_arg7)) slices_S1024x512_S512x512_0_0 := by
  show StableHlo.after hostOps0 (fun b => m (c, b)) (Proc.devRef .tc main_v2) = _
  after_results
  all_goals rfl

theorem V_v4 (c : Dev nD) : (V m c main_v4 : S512x512.Idx → EReal)
    = extractStridedSlice S512x512 ![512, 0] (m ((c : Thread nD τ).loc main_arg7)) slices_S1024x512_S512x512_512_0 := by
  show StableHlo.after hostOps0 (fun b => m (c, b)) (Proc.devRef .tc main_v4) = _
  after_results
  all_goals rfl

/-- The last-update column: entry `(n, 0)` is the vector's entry `n`. -/
theorem V_v0_apply (c : Dev nD) (n : Fin 4096) : (V m c main_v0 : S4096x1.Idx → EReal) (ix2 n (0 : Fin 1)) = (m ((c : Thread nD τ).loc main_arg2)) (ix1 n) := by
  rw [V_v0]
  exact LibColumn.shapeCast_a_a1_apply _ _ n 0

/-- The gate weights flattened: entry `j` is the column's entry `(j, 0)`. -/
theorem V_v1_apply (c : Dev nD) (j : Fin 512) : (V m c main_v1 : S512.Idx → EReal) (ix1 j) = (m ((c : Thread nD τ).loc main_arg11)) (ix2 j (0 : Fin 1)) := by
  rw [V_v1]
  exact shapeCast_apply (s := S512x1) (t := S512) _ shapeCasts_S512x1_S512 (ix1 j) (ix2 j (0 : Fin 1)) (by
    rw [Shape.rowMajor_val_two, Shape.rowMajor_val_one]
    show j.val * 1 + 0 = j.val
    omega)

/-- The upper weight block: rows `0 … 511`. -/
theorem V_v2_apply (c : Dev nD) (k j : Fin 512) : (V m c main_v2 : S512x512.Idx → EReal) (ix2 k j) = (m ((c : Thread nD τ).loc main_arg7)) (ix2 (lo k) j) := by
  rw [V_v2]
  refine extractStridedSlice_apply _ _ _ _ _ fun a => ?_
  match a with
  | ⟨0, _⟩ => show k.val = 0 + k.val; omega
  | ⟨1, _⟩ => show j.val = 0 + j.val; omega

/-- The lower weight block: rows `512 … 1023` (the change of format is the identity). -/
theorem V_v4_apply (c : Dev nD) (k j : Fin 512) : (V m c main_v4 : S512x512.Idx → EReal) (ix2 k j) = (m ((c : Thread nD τ).loc main_arg7)) (ix2 (hi k) j) := by
  rw [V_v4]
  refine extractStridedSlice_apply _ _ _ _ _ fun a => ?_
  match a with
  | ⟨0, _⟩ => show 512 + k.val = 512 + k.val; rfl
  | ⟨1, _⟩ => show j.val = 0 + j.val; omega

/-! ## One row of one block -/

section Row

variable (c : Dev nD) (t : Fin cfg0.N) (p l : Fin 32) (r : Fin 4096) (hr : r.val = 32 * t.val + p.val)
include hr

/-- The block's projected row `(p, l)` is the specification's row of node `r = 32 t + p`, slot `l`. -/
theorem row_fm : (fun j => (k0_pay2 (F := Ideal) (iblk m c 1 t) (iblk m c 2 t) (iblk m c 5 t) (iblk m c 6 t) (iblk m c 0 t) (iblk m c 7 t) (iblk m c 3 t) (iblk m c 8 t) (iblk m c 9 t)) (ix3 p l j)) = fmAt (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) r l := by
  funext j
  refine (RowValue.pay2_apply (iblk m c 1 t) (iblk m c 2 t) (iblk m c 5 t) (iblk m c 6 t) (iblk m c 0 t) (iblk m c 7 t) (iblk m c 3 t) (iblk m c 8 t) (iblk m c 9 t) p l j).trans ?_
  unfold fmAt
  refine congrFun (congr (congr (congr (congr (congrArg proj ?_) ?_) ?_) ?_) ?_) j
  · refine congr (congr (congr (congrArg msgRow ?_) ?_) ?_) ?_
    · exact funext fun k => (iblk0_apply m c t (ix3 p l k) (ix3 r l k) hr rfl rfl).trans (congrFun (V_main_arg0 m c) _)
    · refine congrArg₂ (· - ·) ?_ ?_
      · exact (iblk1_apply m c t (ix2 p l) (ix2 r l) hr rfl).trans (congrFun (V_main_arg1 m c) _)
      · exact (iblk2_apply m c t (ix2 p (0 : Fin 1)) (ix2 r (0 : Fin 1)) hr rfl).trans (V_v0_apply m c r)
    · exact funext fun k => (congrFun (iblk5_eq m c t) _).trans (congrFun (V_main_arg5 m c) _)
    · exact funext fun k => (congrFun (iblk6_eq m c t) _).trans (congrFun (V_main_arg6 m c) _)
  · exact funext fun k => (iblk3_apply m c t (ix2 p k) (ix2 r k) hr rfl).trans (congrFun (V_main_arg3 m c) _)
  · exact funext fun k => funext fun j' => (congrFun (iblk7_eq m c t) _).trans (V_v2_apply m c k j')
  · exact funext fun k => funext fun j' => (congrFun (iblk8_eq m c t) _).trans (V_v4_apply m c k j')
  · exact funext fun j' => (congrFun (iblk9_eq m c t) _).trans (congrFun (V_main_arg8 m c) _)

/-- The block's gate at `(p, l)`. -/
theorem gate_point : (k0_pay4 (F := Ideal) (k0_pay2 (F := Ideal) (iblk m c 1 t) (iblk m c 2 t) (iblk m c 5 t) (iblk m c 6 t) (iblk m c 0 t) (iblk m c 7 t) (iblk m c 3 t) (iblk m c 8 t) (iblk m c 9 t)) (k0_pay3 (F := Ideal) (iblk m c 1 t) (iblk m c 2 t) (iblk m c 5 t) (iblk m c 6 t) (iblk m c 0 t) (iblk m c 7 t) (iblk m c 3 t) (iblk m c 8 t) (iblk m c 9 t)) (iblk m c 10 t) (iblk m c 11 t) (iblk m c 12 t) (iblk m c 13 t)) (ix2 p l) = gateAt (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) r l := by
  refine (RowValue.pay4_apply (k0_pay2 (F := Ideal) (iblk m c 1 t) (iblk m c 2 t) (iblk m c 5 t) (iblk m c 6 t) (iblk m c 0 t) (iblk m c 7 t) (iblk m c 3 t) (iblk m c 8 t) (iblk m c 9 t)) (k0_pay3 (F := Ideal) (iblk m c 1 t) (iblk m c 2 t) (iblk m c 5 t) (iblk m c 6 t) (iblk m c 0 t) (iblk m c 7 t) (iblk m c 3 t) (iblk m c 8 t) (iblk m c 9 t)) (iblk m c 10 t) (iblk m c 11 t) (iblk m c 12 t) (iblk m c 13 t) p l
    (RowValue.pay3_apply (iblk m c 1 t) (iblk m c 2 t) (iblk m c 5 t) (iblk m c 6 t) (iblk m c 0 t) (iblk m c 7 t) (iblk m c 3 t) (iblk m c 8 t) (iblk m c 9 t) p l 0)).trans ?_
  unfold gateAt
  refine congr (congr (congr (congr (congrArg gate (row_fm m c t p l r hr)) ?_) ?_) ?_) ?_
  · exact funext fun j => (congrFun (iblk10_eq m c t) _).trans (congrFun (V_main_arg9 m c) _)
  · exact funext fun j => (congrFun (iblk11_eq m c t) _).trans (congrFun (V_main_arg10 m c) _)
  · exact funext fun j => (congrFun (iblk12_eq m c t) _).trans (V_v1_apply m c j)
  · exact (congrFun (iblk13_eq m c t) _).trans (congrFun (V_main_arg12 m c) _)

/-- The block's thresholded value at `(p, l)`. -/
theorem hard_point : k0_pay1 (F := Ideal) (k0_pay6 (F := Ideal) (k0_pay2 (F := Ideal) (iblk m c 1 t) (iblk m c 2 t) (iblk m c 5 t) (iblk m c 6 t) (iblk m c 0 t) (iblk m c 7 t) (iblk m c 3 t) (iblk m c 8 t) (iblk m c 9 t)) (k0_pay3 (F := Ideal) (iblk m c 1 t) (iblk m c 2 t) (iblk m c 5 t) (iblk m c 6 t) (iblk m c 0 t) (iblk m c 7 t) (iblk m c 3 t) (iblk m c 8 t) (iblk m c 9 t)) (iblk m c 10 t) (iblk m c 11 t) (iblk m c 12 t) (iblk m c 13 t) (iblk m c 4 t)) (k0_pay7 (F := Ideal)) (ix2 p l) = hardAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) r l := by
  refine (RowValue.pay1_apply _ _ (ix2 p l)).trans ?_
  unfold hardAt
  refine congrArg (fun x => hard (soft x)) (congrArg₂ Ideal.div ?_ (RowValue.pay7_apply (ix2 p l)))
  refine (RowValue.pay6_apply _ _ _ _ _ _ _ (ix2 p l)).trans ?_
  exact congrArg₂ numer (gate_point m c t p l r hr)
    ((iblk4_apply m c t (ix2 p l) (ix2 r l) hr rfl).trans (congrFun (V_main_arg4 m c) _))

/-- The block's slot average at `(p, j)`. -/
theorem memout_point (j : Fin 512) : k0_pay5 (F := Ideal) (k0_pay2 (F := Ideal) (iblk m c 1 t) (iblk m c 2 t) (iblk m c 5 t) (iblk m c 6 t) (iblk m c 0 t) (iblk m c 7 t) (iblk m c 3 t) (iblk m c 8 t) (iblk m c 9 t)) (ix2 p j) = memOutAt (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) r j := by
  refine (RowValue.pay5_apply _ p j).trans ?_
  unfold memOutAt
  exact congrArg memOut (funext fun l' => congrFun (row_fm m c t p l' r hr) j)

end Row

end Cert.KernelIdeal.BlockValue

end
-- ==== Proof.KernelArrays.lean ====
/-
  The three arrays the region leaves: the 128 blocks of 32 rows tile the 4096 rows, each block holding the specification's
  values for its rows, so each array ends as the specification's array.
-/
import proofs.«113750_j29892972380504_2_alg».proof.Proof.Gen.KernelIdeal.Frame
import proofs.«113750_j29892972380504_2_alg».proof.Proof.KernelRow
import proofs.«113750_j29892972380504_2_alg».proof.Proof.LibColumn
import proofs.«113750_j29892972380504_2_alg».proof.Proof.KernelBlocks
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.ArrayValue

open Cert.KernelIdeal Cert.KernelIdeal.Gen Idealize.ShloMosaic.ValueIdx Cert.HardGate

variable (m : (ℓ : Loc nD τ sig) → Buf (Elt Ideal) ℓ) (ρ : Dev nD → PrngReg)

open Cert.KernelIdeal.BlockValue

/-!
  From blocks to whole arrays.  Each of the kernel's three outputs is written back one block of 32 rows per grid point;
  block `t` holds, at `(p, q)`, the specification's value for node `32 t + p`.  The 128 blocks tile the 4096 rows, so each
  array ends holding the specification's array.
-/

/-! ## Output window 14 -/

/-- What the array ends holding. -/
abbrev gateK (c : Dev nD) : S4096x32.Idx → EReal := gateArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- What point `t` writes back is block `t` of that array. -/
theorem flushed14_eq (c : Dev nD) (t : Fin cfg0.N) :
    (dats m 0 c).flushed 14 t = ((cfg0.win 14).blk t).view.read (Elt Ideal) (gateK m c) := by
  show (cfg0.win 14).cut (grid0.coords t) ((dats m 0 c).after 14 t) = _
  rw [after0_14]
  unfold out0_14
  rw [View.canon_unit_zero hz2]
  simp only [View.ld_unit_zero (S := S32x32) hz2, View.ld_unit_zero (S := S32x1) hz2, View.ld_unit_zero (S := S512) hz1, View.ld_unit_zero (S := S32x32x512) hz3, View.ld_unit_zero (S := S512x512) hz2, View.ld_unit_zero (S := S32x512) hz2, View.ld_unit_zero (S := S1) hz1]
  refine funext fun (y : S32x32.Idx) => ?_
  obtain ⟨p, q, rfl⟩ : ∃ (p : Fin 32) (q : Fin 32), y = ix2 p q := ⟨y 0, y 1, eq_ix2 y⟩
  refine Eq.trans ?_ (read14_apply (gateK m c) t (ix2 p q) (ix2 (rowOf t p) q) rfl rfl).symm
  exact gate_point m c t p q (rowOf t p) rfl

/-- An index of the array is in point `t`'s block iff each coordinate is in the block's range. -/
theorem mem_blk14 (t : Fin cfg0.N) (i : S4096x32.Idx) :
    i ∈ ((cfg0.win 14).blk t).view.set ↔ ∀ a : Fin 2, win0_14.index t a * S32x32.size a ≤ (i a).val ∧ (i a).val < win0_14.index t a * S32x32.size a + S32x32.size a := by
  show i ∈ ((View.whole main_v5_0).slice (win0_14.rect t)).set ↔ _
  rw [View.set_slice_whole, Rect.mem_set_unit]
  exact Iff.rfl

/-- Row `r` lies in the block of point `r / 32`: the blocks cover the array. -/
theorem cover14 (i : S4096x32.Idx) : ∃ t : Fin cfg0.N, (cfg0.win 14).flush t = true ∧ i ∈ ((cfg0.win 14).blk t).view.set := by
  have hi0 : (i 0).val < 4096 := (i 0).isLt
  have hi1 : (i 1).val < 32 := (i 1).isLt
  obtain ⟨t, ht⟩ : ∃ t : Fin cfg0.N, t.val = (i 0).val / 32 :=
    ⟨⟨(i 0).val / 32, by rw [show cfg0.N = 128 from N_0]; omega⟩, rfl⟩
  obtain ⟨e0, e1⟩ := idx_14 t
  refine ⟨t, flush0_14 t, ?_⟩
  rw [mem_blk14]
  intro a
  match a with
  | ⟨0, _⟩ => show win0_14.index t (0 : Fin 2) * 32 ≤ (i 0).val ∧ (i 0).val < win0_14.index t (0 : Fin 2) * 32 + 32; rw [e0, ht]; omega
  | ⟨1, _⟩ => show win0_14.index t (1 : Fin 2) * 32 ≤ (i 1).val ∧ (i 1).val < win0_14.index t (1 : Fin 2) * 32 + 32; rw [e1]; omega

/-- The array after the run. -/
theorem final14 (c : Dev nD) : (dats m 0 c).arrAt 14 cfg0.N = gateK m c :=
  (dats m 0 c).arrAt_eq_of_cover 14 (gateK m c) (fun t _ => flushed14_eq m c t) cover14

/-! ## Output window 15 -/

/-- What the array ends holding. -/
abbrev hardK (c : Dev nD) : S4096x32.Idx → EReal := hardArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- What point `t` writes back is block `t` of that array. -/
theorem flushed15_eq (c : Dev nD) (t : Fin cfg0.N) :
    (dats m 0 c).flushed 15 t = ((cfg0.win 15).blk t).view.read (Elt Ideal) (hardK m c) := by
  show (cfg0.win 15).cut (grid0.coords t) ((dats m 0 c).after 15 t) = _
  rw [after0_15]
  unfold out0_15
  rw [View.canon_unit_zero hz2]
  simp only [View.ld_unit_zero (S := S32x32) hz2, View.ld_unit_zero (S := S32x1) hz2, View.ld_unit_zero (S := S512) hz1, View.ld_unit_zero (S := S32x32x512) hz3, View.ld_unit_zero (S := S512x512) hz2, View.ld_unit_zero (S := S32x512) hz2, View.ld_unit_zero (S := S1) hz1]
  refine funext fun (y : S32x32.Idx) => ?_
  obtain ⟨p, q, rfl⟩ : ∃ (p : Fin 32) (q : Fin 32), y = ix2 p q := ⟨y 0, y 1, eq_ix2 y⟩
  refine Eq.trans ?_ (read15_apply (hardK m c) t (ix2 p q) (ix2 (rowOf t p) q) rfl rfl).symm
  exact hard_point m c t p q (rowOf t p) rfl

/-- An index of the array is in point `t`'s block iff each coordinate is in the block's range. -/
theorem mem_blk15 (t : Fin cfg0.N) (i : S4096x32.Idx) :
    i ∈ ((cfg0.win 15).blk t).view.set ↔ ∀ a : Fin 2, win0_15.index t a * S32x32.size a ≤ (i a).val ∧ (i a).val < win0_15.index t a * S32x32.size a + S32x32.size a := by
  show i ∈ ((View.whole main_v5_1).slice (win0_15.rect t)).set ↔ _
  rw [View.set_slice_whole, Rect.mem_set_unit]
  exact Iff.rfl

/-- Row `r` lies in the block of point `r / 32`: the blocks cover the array. -/
theorem cover15 (i : S4096x32.Idx) : ∃ t : Fin cfg0.N, (cfg0.win 15).flush t = true ∧ i ∈ ((cfg0.win 15).blk t).view.set := by
  have hi0 : (i 0).val < 4096 := (i 0).isLt
  have hi1 : (i 1).val < 32 := (i 1).isLt
  obtain ⟨t, ht⟩ : ∃ t : Fin cfg0.N, t.val = (i 0).val / 32 :=
    ⟨⟨(i 0).val / 32, by rw [show cfg0.N = 128 from N_0]; omega⟩, rfl⟩
  obtain ⟨e0, e1⟩ := idx_15 t
  refine ⟨t, flush0_15 t, ?_⟩
  rw [mem_blk15]
  intro a
  match a with
  | ⟨0, _⟩ => show win0_15.index t (0 : Fin 2) * 32 ≤ (i 0).val ∧ (i 0).val < win0_15.index t (0 : Fin 2) * 32 + 32; rw [e0, ht]; omega
  | ⟨1, _⟩ => show win0_15.index t (1 : Fin 2) * 32 ≤ (i 1).val ∧ (i 1).val < win0_15.index t (1 : Fin 2) * 32 + 32; rw [e1]; omega

/-- The array after the run. -/
theorem final15 (c : Dev nD) : (dats m 0 c).arrAt 15 cfg0.N = hardK m c :=
  (dats m 0 c).arrAt_eq_of_cover 15 (hardK m c) (fun t _ => flushed15_eq m c t) cover15

/-! ## Output window 16 -/

/-- What the array ends holding. -/
abbrev memOutK (c : Dev nD) : S4096x512.Idx → EReal := memOutArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))

/-- What point `t` writes back is block `t` of that array. -/
theorem flushed16_eq (c : Dev nD) (t : Fin cfg0.N) :
    (dats m 0 c).flushed 16 t = ((cfg0.win 16).blk t).view.read (Elt Ideal) (memOutK m c) := by
  show (cfg0.win 16).cut (grid0.coords t) ((dats m 0 c).after 16 t) = _
  rw [after0_16]
  unfold out0_16
  rw [View.canon_unit_zero hz2]
  simp only [View.ld_unit_zero (S := S32x32) hz2, View.ld_unit_zero (S := S32x1) hz2, View.ld_unit_zero (S := S512) hz1, View.ld_unit_zero (S := S32x32x512) hz3, View.ld_unit_zero (S := S512x512) hz2, View.ld_unit_zero (S := S32x512) hz2, View.ld_unit_zero (S := S1) hz1]
  refine funext fun (y : S32x512.Idx) => ?_
  obtain ⟨p, q, rfl⟩ : ∃ (p : Fin 32) (q : Fin 512), y = ix2 p q := ⟨y 0, y 1, eq_ix2 y⟩
  refine Eq.trans ?_ (read16_apply (memOutK m c) t (ix2 p q) (ix2 (rowOf t p) q) rfl rfl).symm
  exact memout_point m c t p (rowOf t p) rfl q

/-- An index of the array is in point `t`'s block iff each coordinate is in the block's range. -/
theorem mem_blk16 (t : Fin cfg0.N) (i : S4096x512.Idx) :
    i ∈ ((cfg0.win 16).blk t).view.set ↔ ∀ a : Fin 2, win0_16.index t a * S32x512.size a ≤ (i a).val ∧ (i a).val < win0_16.index t a * S32x512.size a + S32x512.size a := by
  show i ∈ ((View.whole main_v5_2).slice (win0_16.rect t)).set ↔ _
  rw [View.set_slice_whole, Rect.mem_set_unit]
  exact Iff.rfl

/-- Row `r` lies in the block of point `r / 32`: the blocks cover the array. -/
theorem cover16 (i : S4096x512.Idx) : ∃ t : Fin cfg0.N, (cfg0.win 16).flush t = true ∧ i ∈ ((cfg0.win 16).blk t).view.set := by
  have hi0 : (i 0).val < 4096 := (i 0).isLt
  have hi1 : (i 1).val < 512 := (i 1).isLt
  obtain ⟨t, ht⟩ : ∃ t : Fin cfg0.N, t.val = (i 0).val / 32 :=
    ⟨⟨(i 0).val / 32, by rw [show cfg0.N = 128 from N_0]; omega⟩, rfl⟩
  obtain ⟨e0, e1⟩ := idx_16 t
  refine ⟨t, flush0_16 t, ?_⟩
  rw [mem_blk16]
  intro a
  match a with
  | ⟨0, _⟩ => show win0_16.index t (0 : Fin 2) * 32 ≤ (i 0).val ∧ (i 0).val < win0_16.index t (0 : Fin 2) * 32 + 32; rw [e0, ht]; omega
  | ⟨1, _⟩ => show win0_16.index t (1 : Fin 2) * 512 ≤ (i 1).val ∧ (i 1).val < win0_16.index t (1 : Fin 2) * 512 + 512; rw [e1]; omega

/-- The array after the run. -/
theorem final16 (c : Dev nD) : (dats m 0 c).arrAt 16 cfg0.N = memOutK m c :=
  (dats m 0 c).arrAt_eq_of_cover 16 (memOutK m c) (fun t _ => flushed16_eq m c t) cover16

end Cert.KernelIdeal.ArrayValue

end
-- ==== Proof.Tail.lean ====
/-
  The host's tail after the gate: the penalty, the number of edges kept, and the kept edges scattered into a flat vector.

  Both programs end with the same host lines applied to the gate array and to the thresholded array: the mean over all
  `4096 · 32` entries of the logistic of `gate + 3 − β·log(−γ/ζ)`, divided by 32; the sum of the thresholded array; and
  a scatter of its entries, in row-major order, into a vector of −1 at the (wrapped) edge ids.  Named here once, as
  functions of those arrays, so that neither proof opens them.
-/
import proofs.«113750_j29892972380504_2_alg».proof.KernelIdeal
import proofs.«113750_j29892972380504_2_alg».proof.Proof.Gen.KernelIdeal
import Idealize.ShloMosaic.PureOps.Ideal

noncomputable section

namespace Cert.KernelIdeal.TailValue

open Cert.KernelIdeal Cert.KernelIdeal.Facts₀ Idealize.ShloMosaic

/-- The penalty: `mean(logistic(gate + 3 − c)) / 32`. -/
def penaltyOf (gate : FVec Ideal S4096x32 .f32) : FVec Ideal S_ .f32 :=
  Host.divf (Host.divf (Host.reduceAdd
    (Host.divf (broadcastInDim S4096x32 ![] bcast_S_S4096x32 (constant (F := Ideal) S_ .f32 0x3F800000#32))
      (addf (broadcastInDim S4096x32 ![] bcast_S_S4096x32 (constant (F := Ideal) S_ .f32 0x3F800000#32))
        (Host.exp (Host.negf (subf (addf gate (broadcastInDim S4096x32 ![] bcast_S_S4096x32 (constant (F := Ideal) S_ .f32 0x40400000#32))) (broadcastInDim S4096x32 ![] bcast_S_S4096x32 (constant (F := Ideal) S_ .f32 0xBF0956B5#32)))))))
    (constant (F := Ideal) S_ .f32 0x00000000#32) reducesTo_S4096x32_S_d0_1 h_S_)
    (constant (F := Ideal) S_ .f32 0x48000000#32)) (constant (F := Ideal) S_ .f32 0x42000000#32)

/-- The number of edges kept. -/
def remainOf (hard : FVec Ideal S4096x32 .f32) : FVec Ideal S_ .f32 :=
  Host.reduceAdd hard (constant (F := Ideal) S_ .f32 0x00000000#32) reducesTo_S4096x32_S_d0_1 h_S_

/-- The edge ids flattened, a negative id wrapped by the length. -/
def wrapIds (eids : IVec S4096x32 32) : IVec S131072x1 32 :=
  broadcastInDim S131072x1 ![0] bcast_S131072_S131072x1_0
    (select (cmpi .slt (shapeCast S131072 eids shapeCasts_S4096x32_S131072) (broadcastInDim S131072 ![] bcast_S_S131072 (constantI S_ 32 0#32)))
      (addi (shapeCast S131072 eids shapeCasts_S4096x32_S131072) (broadcastInDim S131072 ![] bcast_S_S131072 (constantI S_ 32 131072#32)))
      (shapeCast S131072 eids shapeCasts_S4096x32_S131072))

/-- The thresholded entries scattered into a vector of −1. -/
def flatOf (hard : FVec Ideal S4096x32 .f32) (eids : IVec S4096x32 32) : FVec Ideal S131072 .f32 :=
  Host.scatter scatter_S131072_S131072x1_S131072_n_0_0_1 (fun _ b => b)
    (broadcastInDim S131072 ![] bcast_S_S131072 (constant (F := Ideal) S_ .f32 0xBF800000#32)) (wrapIds eids) (shapeCast S131072 hard shapeCasts_S4096x32_S131072)

end Cert.KernelIdeal.TailValue

end
-- ==== Proof.KernelRun.lean ====
/-
  The kernel's whole run: after the region the host lines take the penalty of the gate array, the sum and the scatter of
  the thresholded array; the slot-averaged array is a result as the region left it.
-/
import proofs.«113750_j29892972380504_2_alg».proof.Proof.Gen.KernelIdeal.Frame
import proofs.«113750_j29892972380504_2_alg».proof.Proof.KernelRow
import proofs.«113750_j29892972380504_2_alg».proof.Proof.LibColumn
import proofs.«113750_j29892972380504_2_alg».proof.Proof.KernelArrays
import proofs.«113750_j29892972380504_2_alg».proof.Proof.Tail
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.RunValue

open Cert.KernelIdeal Cert.KernelIdeal.Gen Idealize.ShloMosaic.ValueIdx Cert.HardGate

variable (m : (ℓ : Loc nD τ sig) → Buf (Elt Ideal) ℓ) (ρ : Dev nD → PrngReg)

open Cert.KernelIdeal.BlockValue Cert.KernelIdeal.ArrayValue Cert.KernelIdeal.TailValue

/-!
  The kernel's run, read: the three arrays the region leaves are the specification's, and the host lines after the
  region apply the shared tail to the first two.
-/

/-- What the lines after the region find in the gate array and in the thresholded array. -/
theorem arr14 (c : Dev nD) : Pipeline.withArrays (cfgs 0).spec c (V0 m c) (fun w => (dats m 0 c).arrAt w (cfgs 0).N) (Proc.devRef .tc main_v5_0) = gateK m c :=
  (Pipeline.withArrays_arr spec0 launch0.win.arr_inj c _ _ 14).trans (final14 m c)
theorem arr15 (c : Dev nD) : Pipeline.withArrays (cfgs 0).spec c (V0 m c) (fun w => (dats m 0 c).arrAt w (cfgs 0).N) (Proc.devRef .tc main_v5_1) = hardK m c :=
  (Pipeline.withArrays_arr spec0 launch0.win.arr_inj c _ _ 15).trans (final15 m c)
/-- The edge ids are no array of the region: the lines after it find them as launched. -/
theorem arrIds (c : Dev nD) : Pipeline.withArrays (cfgs 0).spec c (V0 m c) (fun w => (dats m 0 c).arrAt w (cfgs 0).N) (Proc.devRef .tc main_arg13) = m ((c.tc : Thread nD τ).loc main_arg13) :=
  (Pipeline.withArrays_of_ne _ c (V0 m c) _ main_arg13 (by exact (by decide : ∀ w, Pipeline.arrRef spec0 w ≠ main_arg13))).trans
    (V_main_arg13 m c)

theorem tail_v18 (c : Dev nD) : Pipeline.afterTail₀ cfgs (dats m) 0 (V0 m) [hostOps1] c main_v18 = penaltyOf (gateK m c) := by
  unfold Pipeline.afterTail₀
  show StableHlo.after hostOps1 _ (Proc.devRef .tc main_v18) = _
  after_results_simp
  rw [arr14 m c]
  rfl

theorem tail_v19 (c : Dev nD) : Pipeline.afterTail₀ cfgs (dats m) 0 (V0 m) [hostOps1] c main_v19 = remainOf (hardK m c) := by
  unfold Pipeline.afterTail₀
  show StableHlo.after hostOps1 _ (Proc.devRef .tc main_v19) = _
  after_results_simp
  rw [arr15 m c]
  rfl

theorem tail_cst9 (c : Dev nD) : Pipeline.afterTail₀ cfgs (dats m) 0 (V0 m) [hostOps1] c main_cst_9 = constant (F := Ideal) S_ .f32 0x48000000#32 := by
  unfold Pipeline.afterTail₀
  show StableHlo.after hostOps1 _ (Proc.devRef .tc main_cst_9) = _
  after_results_simp
  all_goals rfl

theorem tail_v29 (c : Dev nD) : Pipeline.afterTail₀ cfgs (dats m) 0 (V0 m) [hostOps1] c main_v29
    = flatOf (hardK m c) (m ((c.tc : Thread nD τ).loc main_arg13)) := by
  unfold Pipeline.afterTail₀
  show StableHlo.after hostOps1 _ (Proc.devRef .tc main_v29) = _
  after_results_simp
  rw [arr15 m c, arrIds m c]
  rfl

/-- Every weakly fair execution ends with the five results at the shared tail of the specification's arrays, and the
    arguments unchanged. -/
theorem run : θ_run defs (onTc (τ := τ) (main (F := Ideal))) ⟨m, fun _ => 0, ρ⟩ fun r => ∀ c : Dev nD,
      r.2.mem ((c.tc : Thread nD τ).loc main_v18) = penaltyOf (gateK m c)
      ∧ r.2.mem ((c.tc : Thread nD τ).loc main_v19) = remainOf (hardK m c)
      ∧ r.2.mem ((c.tc : Thread nD τ).loc main_cst_9) = constant (F := Ideal) S_ .f32 0x48000000#32
      ∧ r.2.mem ((c.tc : Thread nD τ).loc main_v29) = flatOf (hardK m c) (m ((c.tc : Thread nD τ).loc main_arg13))
      ∧ r.2.mem ((c.tc : Thread nD τ).loc main_v5_2) = memOutK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨
      ((h c).2 main_v18 (Pipeline.mem_restRefs_of main_v18 (by decide) (by decide))).trans (tail_v18 m c),
      ((h c).2 main_v19 (Pipeline.mem_restRefs_of main_v19 (by decide) (by decide))).trans (tail_v19 m c),
      ((h c).2 main_cst_9 (Pipeline.mem_restRefs_of main_cst_9 (by decide) (by decide))).trans (tail_cst9 m c),
      ((h c).2 main_v29 (Pipeline.mem_restRefs_of main_v29 (by decide) (by decide))).trans (tail_v29 m c),
      ((h c).1 16).trans (final16 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).1 9).trans (((dats m 0 c).arrAt_in 9 rfl _).trans ((A_eq m c 9).trans (V_main_arg8 m c))),
      ((h c).1 10).trans (((dats m 0 c).arrAt_in 10 rfl _).trans ((A_eq m c 10).trans (V_main_arg9 m c))),
      ((h c).1 11).trans (((dats m 0 c).arrAt_in 11 rfl _).trans ((A_eq m c 11).trans (V_main_arg10 m c))),
      ((h c).2 main_arg11 (Pipeline.mem_restRefs_of main_arg11 (by decide) (by decide))).trans (W_main_arg11 m (dats m) c),
      ((h c).1 13).trans (((dats m 0 c).arrAt_in 13 rfl _).trans ((A_eq m c 13).trans (V_main_arg12 m c))),
      ((h c).2 main_arg13 (Pipeline.mem_restRefs_of main_arg13 (by decide) (by decide))).trans (W_main_arg13 m (dats m) c)⟩)
    (run_main m ρ)

end Cert.KernelIdeal.RunValue

end
-- ==== Proof.RefRows.lean ====
/-
  The reference's values, read entry by entry.

  The reference concatenates the message row (feature plus cosine time code) with the node's memory row, multiplies the
  row of 1024 entries by the whole weight matrix and adds the bias; split at 512 that is the specification's projected
  row.  The layer normalisation, the gate, the clipped logistic and the slot average are then the specification's row
  functions; the sums start from the zero word, the logistic is spelt `1 / (1 + exp (−x))`, the negation `−u` where the
  kernel writes `0 − u`, and the result is the clipped value plus (bit − clipped value), which is the bit.
-/
import proofs.«113750_j29892972380504_2_alg».proof.Proof.Gen.ReferenceIdeal.Read
import proofs.«113750_j29892972380504_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RowValue

open Cert.ReferenceIdeal Cert.ReferenceIdeal.Gen Cert.ReferenceIdeal.Read Idealize.ShloMosaic Idealize.ShloMosaic.ValueIdx Cert.HardGate

variable (x0 : (⟨S4096x32x512, .f32⟩ : BufTy).Contents (Elt Ideal)) (x1 : (⟨S4096x32, .f32⟩ : BufTy).Contents (Elt Ideal)) (x2 : (⟨S4096, .f32⟩ : BufTy).Contents (Elt Ideal)) (x3 : (⟨S4096x512, .f32⟩ : BufTy).Contents (Elt Ideal)) (x4 : (⟨S4096x32, .f32⟩ : BufTy).Contents (Elt Ideal)) (x5 : (⟨S512, .f32⟩ : BufTy).Contents (Elt Ideal)) (x6 : (⟨S512, .f32⟩ : BufTy).Contents (Elt Ideal)) (x7 : (⟨S1024x512, .f32⟩ : BufTy).Contents (Elt Ideal)) (x8 : (⟨S512, .f32⟩ : BufTy).Contents (Elt Ideal)) (x9 : (⟨S512, .f32⟩ : BufTy).Contents (Elt Ideal)) (x10 : (⟨S512, .f32⟩ : BufTy).Contents (Elt Ideal)) (x11 : (⟨S512x1, .f32⟩ : BufTy).Contents (Elt Ideal)) (x12 : (⟨S1, .f32⟩ : BufTy).Contents (Elt Ideal))

/-! ## The projected row -/

/-- The message entry `(n, l, k)`: feature plus cosine time code. -/
theorem ref_msg (n : Fin 4096) (l : Fin 32) (k : Fin 512) :
    val_main_v12 (F := Ideal) x0 x1 x2 x5 x6 (ix3 n l k) = msgRow (fun k => x0 (ix3 n l k)) (x1 (ix2 n l) - x2 (ix1 n)) (fun k => x5 (ix1 k)) (fun k => x6 (ix1 k)) k := by
  rw [val_main_v12_apply, val_main_v11_apply, val_main_v10_apply, val_main_v7_apply, val_main_v5_apply, val_main_v3_apply, val_main_v2_apply, val_main_v1_apply, val_main_v0_apply, val_main_v6_apply, val_main_v4_apply, val_main_v9_apply, val_main_v8_apply]
  have e1 : idx_main_v3 (idx_main_v5 (ix3 n l k)) = ix2 n l := funext fun a => Fin.ext (by match a with | ⟨0, _⟩ => rfl | ⟨1, _⟩ => rfl)
  have e2 : idx_main_v0 (idx_main_v1 (ix2 n l)) = ix1 n := funext fun a => Fin.ext (by match a with | ⟨0, _⟩ => rfl)
  have e3 : idx_main_v4 (idx_main_v6 (ix3 n l k)) = ix1 k := funext fun a => Fin.ext (by match a with | ⟨0, _⟩ => rfl)
  have e4 : idx_main_v8 (idx_main_v9 (ix3 n l k)) = ix1 k := funext fun a => Fin.ext (by match a with | ⟨0, _⟩ => rfl)
  rw [e1, e2, e3, e4]
  rfl

/-- The memory row repeated over the slots. -/
theorem ref_memrow (n : Fin 4096) (l : Fin 32) (k : Fin 512) : val_main_v14 (F := Ideal) x3 (ix3 n l k) = x3 (ix2 n k) := by
  rw [val_main_v14_apply, val_main_v13_apply]
  exact congrArg x3 (funext fun a => Fin.ext (by match a with | ⟨0, _⟩ => rfl | ⟨1, _⟩ => rfl))

/-- Entry `(n, l, j)` of the reference's projected array. -/
theorem ref_fm (n : Fin 4096) (l : Fin 32) (j : Fin 512) :
    val_main_v19 (F := Ideal) x0 x1 x2 x3 x5 x6 x7 x8 (ix3 n l j) = fmAt x0 x1 x2 x3 x5 x6 x7 x8 n l j := by
  rw [val_main_v19_apply, val_main_v16_apply, val_main_v18_apply, val_main_v17_apply]
  have eb : idx_main_v17 (idx_main_v18 (ix3 n l j)) = ix1 j := funext fun a => Fin.ext (by match a with | ⟨0, _⟩ => rfl)
  have er : ∀ k : Fin 1024, ridx_main_v16 (ix3 n l j) k = ix2 k j := fun k => funext fun a => Fin.ext (by match a with | ⟨0, _⟩ => rfl | ⟨1, _⟩ => rfl)
  rw [eb]
  simp only [er]
  unfold fmAt
  refine (proj_ref (fun k => val_main_v15 (F := Ideal) x0 x1 x2 x3 x5 x6 (lidx_main_v16 (ix3 n l j) k)) (fun k j' => x7 (ix2 k j')) (fun j' => x8 (ix1 j')) j).trans ?_
  refine congrFun (congr (congr (congr (congr (congrArg proj ?_) ?_) rfl) rfl) rfl) j
  · funext k
    unfold val_main_v15
    refine (concatenate_pair_apply_left (2 : Fin S4096x32x1024.rank) _ _ concatenates_S4096x32x512_S4096x32x512_S4096x32x1024_d2 _ rfl (ix3 n l k)
      (fun b => by match b with | ⟨0, _⟩ => rfl | ⟨1, _⟩ => rfl | ⟨2, _⟩ => rfl)).trans ?_
    exact ref_msg x0 x1 x2 x5 x6 n l k
  · funext k
    unfold val_main_v15
    refine (concatenate_pair_apply_right (2 : Fin S4096x32x1024.rank) _ _ concatenates_S4096x32x512_S4096x32x512_S4096x32x1024_d2 _ rfl rfl (ix3 n l k)
      (fun b hb => by match b with | ⟨0, _⟩ => rfl | ⟨1, _⟩ => rfl | ⟨2, _⟩ => exact absurd rfl hb)
      (by show k.val + 512 = 512 + k.val; omega)).trans ?_
    exact ref_memrow x3 n l k

/-! ## Mean, variance, normalisation, gate -/

/-- The row mean (a keepdims column). -/
theorem ref_mean (n : Fin 4096) (l : Fin 32) (u : Fin 1) :
    val_main_v23 (F := Ideal) x0 x1 x2 x3 x5 x6 x7 x8 (ix3 n l u) = mean (fun j => val_main_v19 (F := Ideal) x0 x1 x2 x3 x5 x6 x7 x8 (ix3 n l j)) := by
  rw [val_main_v23_apply, val_main_v21_apply, val_main_v20_apply, val_main_v22_apply, val_main_cst_0_apply, val_main_cst_apply]
  have e : ∀ k : Fin 512, idx_main_v20 (idx_main_v21 (ix3 n l u)) k = ix3 n l k := fun k => funext fun a => Fin.ext (by match a with | ⟨0, _⟩ => rfl | ⟨1, _⟩ => rfl | ⟨2, _⟩ => rfl)
  simp only [e]
  unfold mean
  exact congrArg₂ Ideal.div (zero_add_sum _) rfl

/-- An entry less its row's mean. -/
theorem ref_centered (n : Fin 4096) (l : Fin 32) (k : Fin 512) :
    val_main_v25 (F := Ideal) x0 x1 x2 x3 x5 x6 x7 x8 (ix3 n l k) = val_main_v19 (F := Ideal) x0 x1 x2 x3 x5 x6 x7 x8 (ix3 n l k) - mean (fun j => val_main_v19 (F := Ideal) x0 x1 x2 x3 x5 x6 x7 x8 (ix3 n l j)) := by
  rw [val_main_v25_apply, val_main_v24_apply]
  have e : idx_main_v24 (ix3 n l k) = ix3 n l (0 : Fin 1) := funext fun a => Fin.ext (by match a with | ⟨0, _⟩ => rfl | ⟨1, _⟩ => rfl | ⟨2, _⟩ => rfl)
  rw [e, ref_mean]
  rfl

theorem ref_centered' (n : Fin 4096) (l : Fin 32) (k : Fin 512) :
    val_main_v32 (F := Ideal) x0 x1 x2 x3 x5 x6 x7 x8 (ix3 n l k) = val_main_v19 (F := Ideal) x0 x1 x2 x3 x5 x6 x7 x8 (ix3 n l k) - mean (fun j => val_main_v19 (F := Ideal) x0 x1 x2 x3 x5 x6 x7 x8 (ix3 n l j)) := by
  rw [val_main_v32_apply, val_main_v31_apply]
  have e : idx_main_v31 (ix3 n l k) = ix3 n l (0 : Fin 1) := funext fun a => Fin.ext (by match a with | ⟨0, _⟩ => rfl | ⟨1, _⟩ => rfl | ⟨2, _⟩ => rfl)
  rw [e, ref_mean]
  rfl

/-- The row variance (a keepdims column). -/
theorem ref_var (n : Fin 4096) (l : Fin 32) (u : Fin 1) :
    val_main_v30 (F := Ideal) x0 x1 x2 x3 x5 x6 x7 x8 (ix3 n l u) = var (fun j => val_main_v19 (F := Ideal) x0 x1 x2 x3 x5 x6 x7 x8 (ix3 n l j)) := by
  rw [val_main_v30_apply, val_main_v28_apply, val_main_v27_apply, val_main_v29_apply, val_main_cst_2_apply, val_main_cst_1_apply]
  have e : ∀ k : Fin 512, idx_main_v27 (idx_main_v28 (ix3 n l u)) k = ix3 n l k := fun k => funext fun a => Fin.ext (by match a with | ⟨0, _⟩ => rfl | ⟨1, _⟩ => rfl | ⟨2, _⟩ => rfl)
  simp only [e, val_main_v26_apply, ref_centered]
  unfold var
  exact congrArg₂ Ideal.div (zero_add_sum _) rfl

/-- The normalised entry. -/
theorem ref_normed (n : Fin 4096) (l : Fin 32) (j : Fin 512) :
    val_main_v43 (F := Ideal) x0 x1 x2 x3 x5 x6 x7 x8 x9 x10 (ix3 n l j) = normed (fun j => val_main_v19 (F := Ideal) x0 x1 x2 x3 x5 x6 x7 x8 (ix3 n l j)) (fun j => x9 (ix1 j)) (fun j => x10 (ix1 j)) j := by
  rw [val_main_v43_apply, val_main_v40_apply, val_main_v37_apply, val_main_v36_apply, val_main_v35_apply, val_main_v34_apply, val_main_v33_apply, val_main_cst_3_apply, val_main_v39_apply, val_main_v38_apply, val_main_v42_apply, val_main_v41_apply]
  have e1 : idx_main_v36 (ix3 n l j) = ix3 n l (0 : Fin 1) := funext fun a => Fin.ext (by match a with | ⟨0, _⟩ => rfl | ⟨1, _⟩ => rfl | ⟨2, _⟩ => rfl)
  have e2 : idx_main_v38 (idx_main_v39 (ix3 n l j)) = ix1 j := funext fun a => Fin.ext (by match a with | ⟨0, _⟩ => rfl)
  have e3 : idx_main_v41 (idx_main_v42 (ix3 n l j)) = ix1 j := funext fun a => Fin.ext (by match a with | ⟨0, _⟩ => rfl)
  rw [e1, e2, e3, ref_centered', ref_var]
  rfl

/-- The gate at `(n, l)`. -/
theorem ref_gate (n : Fin 4096) (l : Fin 32) :
    val_main_v48 (F := Ideal) x0 x1 x2 x3 x5 x6 x7 x8 x9 x10 x11 x12 (ix2 n l) = gateAt x0 x1 x2 x3 x5 x6 x7 x8 x9 x10 x11 x12 n l := by
  rw [val_main_v48_apply, val_main_v47_apply, val_main_v44_apply, val_main_v46_apply, val_main_v45_apply]
  have e48 : idx_main_v48 (ix2 n l) = ix3 n l (0 : Fin 1) := funext fun a => Fin.ext (by
    match a with
    | ⟨0, _⟩ => show (n.val * 32 + l.val) / 32 = n.val; omega
    | ⟨1, _⟩ => show (n.val * 32 + l.val) / 1 % 32 = l.val; omega
    | ⟨2, _⟩ => rfl)
  have el : ∀ k : Fin 512, lidx_main_v44 (ix3 n l (0 : Fin 1)) k = ix3 n l k := fun k => funext fun a => Fin.ext (by match a with | ⟨0, _⟩ => rfl | ⟨1, _⟩ => rfl | ⟨2, _⟩ => rfl)
  have er : ∀ k : Fin 512, ridx_main_v44 (ix3 n l (0 : Fin 1)) k = ix2 k (0 : Fin 1) := fun k => funext fun a => Fin.ext (by match a with | ⟨0, _⟩ => rfl | ⟨1, _⟩ => rfl)
  have e45 : idx_main_v45 (idx_main_v46 (ix3 n l (0 : Fin 1))) = ix1 (0 : Fin 1) := funext fun a => Fin.ext (by match a with | ⟨0, _⟩ => rfl)
  have hrow : (fun j => val_main_v19 (F := Ideal) x0 x1 x2 x3 x5 x6 x7 x8 (ix3 n l j)) = fmAt x0 x1 x2 x3 x5 x6 x7 x8 n l := funext fun j => ref_fm x0 x1 x2 x3 x5 x6 x7 x8 n l j
  rw [e48, e45]
  simp only [el, er, ref_normed]
  rw [hrow]
  rfl

/-- The slot average at `(n, j)`. -/
theorem ref_memout (n : Fin 4096) (j : Fin 512) :
    val_main_v51 (F := Ideal) x0 x1 x2 x3 x5 x6 x7 x8 (ix2 n j) = memOutAt x0 x1 x2 x3 x5 x6 x7 x8 n j := by
  rw [val_main_v51_apply, val_main_v49_apply, val_main_v50_apply, val_main_cst_5_apply, val_main_cst_4_apply]
  have e : ∀ k : Fin 32, idx_main_v49 (ix2 n j) k = ix3 n k j := fun k => funext fun a => Fin.ext (by match a with | ⟨0, _⟩ => rfl | ⟨1, _⟩ => rfl | ⟨2, _⟩ => rfl)
  simp only [e, ref_fm]
  unfold memOutAt memOut
  exact congrArg₂ Ideal.div (zero_add_sum _) rfl

/-- The straight-through value at `(n, l)` is the threshold bit. -/
theorem ref_hard (n : Fin 4096) (l : Fin 32) :
    val_main_v86 (F := Ideal) x0 x1 x2 x3 x4 x5 x6 x7 x8 x9 x10 x11 x12 (ix2 n l) = hardAt x0 x1 x2 x3 x4 x5 x6 x7 x8 x9 x10 x11 x12 n l := by
  rw [val_main_v86_apply, val_main_v85_apply, val_main_v84_apply, val_main_v83_apply, val_main_v82_apply, val_main_cst_19_apply, val_main_v81_apply, val_main_call0_v4_apply, val_main_call0_v3_apply, val_main_cst_18_apply, val_main_call0_v2_apply, val_main_call0_v1_apply, val_main_call0_v0_apply, val_main_cst_17_apply, val_main_v80_apply, val_main_v79_apply, val_main_cst_16_apply, val_main_v78_apply, val_main_v77_apply, val_main_cst_15_apply, val_main_v66_apply, val_main_v65_apply, val_main_cst_9_apply, val_main_v64_apply, val_main_v63_apply, val_main_cst_8_apply, val_main_v62_apply, val_main_v61_apply, val_main_v60_apply, val_main_v59_apply, val_main_cst_7_apply, val_main_v58_apply, val_main_v57_apply, val_main_v56_apply, val_main_v55_apply, val_main_v54_apply, val_main_v53_apply, val_main_v52_apply, val_main_cst_6_apply]
  rw [ref_gate]
  have key : ∀ A B : Ideal .f32, A = B →
      FloatOps.addf (F := Ideal) (φ := .f32) A (FloatOps.subf (F := Ideal) (φ := .f32) (FloatOps.uitofp (F := Ideal) .f32
          (FloatOps.cmpf (F := Ideal) (φ := .f32) .ogt A (FloatOps.ofBits (F := Ideal) .f32 0x3F000000#32))) A)
        = (B : EReal) + ((((Ideal.cmp .ogt B (wd 0x3F000000#32)).toNat : ℝ) : EReal) - B) := fun A B h => by subst h; rfl
  refine (key _ _ ?_).trans (hard_ref _)
  exact congrArg (fun z => min (wd 0x3F800000#32) (max (wd 0x00000000#32) (z * wd 0x3F99999A#32 + wd 0xBE4CCCCD#32)))
    ((congrArg (fun q => Ideal.div (wd 0x3F800000#32) (wd 0x3F800000#32 + Ideal.exp (-q)))
      (congrArg₂ Ideal.div (numer_ref (gateAt x0 x1 x2 x3 x5 x6 x7 x8 x9 x10 x11 x12 n l) (x4 (ix2 n l))) rfl)).trans (logistic_ref _))

end Cert.ReferenceIdeal.RowValue

end
-- ==== Proof.RefArrays.lean ====
/-
  The reference's five results as functions of its arguments: the gate, the thresholded and the slot-averaged arrays are
  the specification's arrays (entry by entry, from the row lemmas), and the three scalar and flat results are the shared
  host tail applied to them.
-/
import proofs.«113750_j29892972380504_2_alg».proof.Proof.RefRows
import proofs.«113750_j29892972380504_2_alg».proof.Proof.Tail

set_option maxRecDepth 16384

noncomputable section

namespace Cert.ReferenceIdeal.ArrayValue

open Cert.ReferenceIdeal Cert.ReferenceIdeal.Gen Cert.ReferenceIdeal.Read Idealize.ShloMosaic Idealize.ShloMosaic.ValueIdx Cert.HardGate
open Cert.ReferenceIdeal.RowValue Cert.KernelIdeal.TailValue

variable (x0 : (⟨S4096x32x512, .f32⟩ : BufTy).Contents (Elt Ideal)) (x1 : (⟨S4096x32, .f32⟩ : BufTy).Contents (Elt Ideal)) (x2 : (⟨S4096, .f32⟩ : BufTy).Contents (Elt Ideal)) (x3 : (⟨S4096x512, .f32⟩ : BufTy).Contents (Elt Ideal)) (x4 : (⟨S4096x32, .f32⟩ : BufTy).Contents (Elt Ideal)) (x5 : (⟨S512, .f32⟩ : BufTy).Contents (Elt Ideal)) (x6 : (⟨S512, .f32⟩ : BufTy).Contents (Elt Ideal)) (x7 : (⟨S1024x512, .f32⟩ : BufTy).Contents (Elt Ideal)) (x8 : (⟨S512, .f32⟩ : BufTy).Contents (Elt Ideal)) (x9 : (⟨S512, .f32⟩ : BufTy).Contents (Elt Ideal)) (x10 : (⟨S512, .f32⟩ : BufTy).Contents (Elt Ideal)) (x11 : (⟨S512x1, .f32⟩ : BufTy).Contents (Elt Ideal)) (x12 : (⟨S1, .f32⟩ : BufTy).Contents (Elt Ideal)) (x13 : (⟨S4096x32, .i32⟩ : BufTy).Contents (Elt Ideal))

theorem gate_eq : val_main_v48 (F := Ideal) x0 x1 x2 x3 x5 x6 x7 x8 x9 x10 x11 x12 = gateArr x0 x1 x2 x3 x5 x6 x7 x8 x9 x10 x11 x12 :=
  funext fun i => by
    obtain ⟨n, l, rfl⟩ : ∃ (n : Fin 4096) (l : Fin 32), i = ix2 n l := ⟨i 0, i 1, eq_ix2 i⟩
    exact ref_gate x0 x1 x2 x3 x5 x6 x7 x8 x9 x10 x11 x12 n l

theorem hard_eq : val_main_v86 (F := Ideal) x0 x1 x2 x3 x4 x5 x6 x7 x8 x9 x10 x11 x12 = hardArr x0 x1 x2 x3 x4 x5 x6 x7 x8 x9 x10 x11 x12 :=
  funext fun i => by
    obtain ⟨n, l, rfl⟩ : ∃ (n : Fin 4096) (l : Fin 32), i = ix2 n l := ⟨i 0, i 1, eq_ix2 i⟩
    exact ref_hard x0 x1 x2 x3 x4 x5 x6 x7 x8 x9 x10 x11 x12 n l

theorem memout_eq : val_main_v51 (F := Ideal) x0 x1 x2 x3 x5 x6 x7 x8 = memOutArr x0 x1 x2 x3 x5 x6 x7 x8 :=
  funext fun i => by
    obtain ⟨n, j, rfl⟩ : ∃ (n : Fin 4096) (j : Fin 512), i = ix2 n j := ⟨i 0, i 1, eq_ix2 i⟩
    exact ref_memout x0 x1 x2 x3 x5 x6 x7 x8 n j

/-- The penalty is the shared tail of the gate array. -/
theorem penalty_eq : val_main_v87 (F := Ideal) x0 x1 x2 x3 x5 x6 x7 x8 x9 x10 x11 x12 = penaltyOf (gateArr x0 x1 x2 x3 x5 x6 x7 x8 x9 x10 x11 x12) := by
  rw [← gate_eq]; rfl

/-- The number of edges kept is the shared tail of the thresholded array. -/
theorem remain_eq : val_main_v88 (F := Ideal) x0 x1 x2 x3 x4 x5 x6 x7 x8 x9 x10 x11 x12 = remainOf (hardArr x0 x1 x2 x3 x4 x5 x6 x7 x8 x9 x10 x11 x12) := by
  rw [← hard_eq]; rfl

/-- The flat vector is the shared tail of the thresholded array and the edge ids. -/
theorem flat_eq : val_main_v98 (F := Ideal) x0 x1 x2 x3 x4 x5 x6 x7 x8 x9 x10 x11 x12 x13 = flatOf (hardArr x0 x1 x2 x3 x4 x5 x6 x7 x8 x9 x10 x11 x12) x13 := by
  rw [← hard_eq]; rfl

end Cert.ReferenceIdeal.ArrayValue

end
-- ==== Proof.lean ====
/-
  The certificate of the edge-gate kernel against its reference, on the extended reals.

  Both programs compute, for 4096 nodes with 32 edge slots each, a projected message row of 512 entries per slot, a
  gate per slot, a hard 0/1 decision per slot and the slot-averaged row per node; the host then takes a penalty (a mean
  of logistics of the gates), the number of kept edges and a flat vector of the decisions scattered at the edge ids.
  The kernel splits the reference's one product with the concatenated row into two products, reads its sums, casts and
  broadcasts block by block over 128 grid points, writes `0 − u` for `−u`, uses one logistic operation where the
  reference divides by `1 + exp(−x)`, and stores the decision itself where the reference adds `(decision − soft)` to the
  soft value.  `Proof/Spec.lean` states the mathematics once; `Proof/KernelRow.lean`, `KernelBlocks.lean`,
  `KernelArrays.lean` and `KernelRun.lean` read the kernel's run as the specification's arrays under the shared host
  tail (`Proof/Tail.lean`); `Proof/RefRows.lean` and `RefArrays.lean` read the reference's run the same way.
  The three frames are the generated ones (the reference's is its generated run with the results dropped), and the
  idealization rewrote nothing.
-/
import proofs.«113750_j29892972380504_2_alg».proof.Defs
import proofs.«113750_j29892972380504_2_alg».proof.Proof.Gen.Kernel
import proofs.«113750_j29892972380504_2_alg».proof.Proof.Gen.Kernel.Frame
import proofs.«113750_j29892972380504_2_alg».proof.Proof.Gen.KernelIdeal
import proofs.«113750_j29892972380504_2_alg».proof.Proof.Gen.KernelIdeal.Frame
import proofs.«113750_j29892972380504_2_alg».proof.Proof.Gen.ReferenceIdeal
import proofs.«113750_j29892972380504_2_alg».proof.Proof.Gen.Pre_finite_inputs
import proofs.«113750_j29892972380504_2_alg».proof.Proof.Gen.ReferenceIdeal.Run
import proofs.«113750_j29892972380504_2_alg».proof.Proof.Gen.ReferenceIdeal.Read
import proofs.«113750_j29892972380504_2_alg».proof.Proof.KernelRun
import proofs.«113750_j29892972380504_2_alg».proof.Proof.RefArrays
import Idealize.ShloMosaic.Adequacy
import Idealize.ShloMosaic.Init

set_option maxRecDepth 16384

noncomputable section

namespace Cert.Proof

open Idealize.ShloMosaic Idealize.SL.Sem
open Cert.KernelIdeal.ArrayValue Cert.KernelIdeal.TailValue

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2.2.2) (Cert.ReferenceIdeal.Value.run (F := Ideal) m ρ)

theorem preserves : Cert.preserves_Kernel_KernelIdeal := trivial

/-- Both runs end with the five results at the shared tail of the specification's arrays of arguments that agree. -/
theorem algebraic : Cert.algebraic_KernelIdeal_ReferenceIdeal := by
  intro m ρ m' ρ' _ hagree
  refine ⟨fun c => penaltyOf (gateK m c), fun c => remainOf (hardK m c),
    fun _ => constant (F := Ideal) Cert.KernelIdeal.S_ .f32 0x48000000#32,
    fun c => flatOf (hardK m c) (m ((c.tc : Thread Cert.KernelIdeal.nD Cert.KernelIdeal.τ).loc Cert.KernelIdeal.main_arg13)),
    fun c => memOutK m c, Cert.KernelIdeal.RunValue.run m ρ, ?_⟩
  refine (θ_run Cert.ReferenceIdeal.defs _ _).mono (fun _ h c => ?_) (Cert.ReferenceIdeal.Value.run (F := Ideal) m' ρ')
  obtain ⟨h0, h1, h2, h3, h4, hargs⟩ := h c
  obtain ⟨a0, a1, a2, a3, a4, a5, a6, a7, a8, a9, a10, a11, a12, a13⟩ := hagree c
  refine ⟨h0.trans ?_, h1.trans ?_, h2, h3.trans ?_, h4.trans ?_, hargs⟩
  · rw [Cert.ReferenceIdeal.Read.val_main_v87_eq, a0, a1, a2, a3, a5, a6, a7, a8, a9, a10, a11, a12]
    exact Cert.ReferenceIdeal.ArrayValue.penalty_eq _ _ _ _ _ _ _ _ _ _ _ _
  · rw [Cert.ReferenceIdeal.Read.val_main_v88_eq, a0, a1, a2, a3, a4, a5, a6, a7, a8, a9, a10, a11, a12]
    exact Cert.ReferenceIdeal.ArrayValue.remain_eq _ _ _ _ _ _ _ _ _ _ _ _ _
  · rw [Cert.ReferenceIdeal.Read.val_main_v98_eq, a0, a1, a2, a3, a4, a5, a6, a7, a8, a9, a10, a11, a12, a13]
    exact Cert.ReferenceIdeal.ArrayValue.flat_eq _ _ _ _ _ _ _ _ _ _ _ _ _ _
  · rw [Cert.ReferenceIdeal.Read.val_main_v51_eq, a0, a1, a2, a3, a5, a6, a7, a8]
    exact Cert.ReferenceIdeal.ArrayValue.memout_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
